-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel

variable [Facts]

def fn {F : FTy → Type} [FloatOps F] (main_arg0 : FVec F S8192x64 .f32) (main_arg1 : FVec F S8192x64 .f32) (main_arg2 : FVec F S8192x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S8192x64 .f32 := Host.absf main_arg2
  let main_cst_2 : FVec F S_ .f32 := constant S_ .f32 0x7F800000#32
  let main_v10 : FVec F S8192x64 .f32 := broadcastInDim S8192x64 ![] bcast_S_S8192x64 main_cst_2
  let main_v11 : IVec S8192x64 1 := cmpf .olt main_v9 main_v10
  let main_c_3 : IVec S_ 1 := constantI S_ 1 1#1
  let main_v12 : IVec S_ 1 := (fun x v => Host.reduce IntOp.andi x v reducesTo_S8192x64_S_d0_1 h_S_) main_v11 main_c_3
  let main_v13 : IVec S_ 1 := andi main_v8 main_v12
  main_v13
-- ==== Kernel.lean ====
abbrev S8192x64 : Shape := ⟨2, ![8192, 64]⟩
abbrev S_ : Shape := ⟨0, ![]⟩
abbrev S8192x1 : Shape := ⟨2, ![8192, 1]⟩
abbrev S8192x65 : Shape := ⟨2, ![8192, 65]⟩
abbrev S1024x64 : Shape := ⟨2, ![1024, 64]⟩
abbrev S1024x65 : Shape := ⟨2, ![1024, 65]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192x1, .f32⟩
  | .hbm, ⟨5, _⟩ => ⟨S8192x65, .f32⟩
  | .hbm, ⟨6, _⟩ => ⟨S8192x64, .f32⟩
  | .local _ .vmem, ⟨0, _⟩ => ⟨S1024x64, .f32⟩
  | .local _ .vmem, ⟨1, _⟩ => ⟨S1024x64, .f32⟩
  | .local _ .vmem, ⟨2, _⟩ => ⟨S1024x64, .f32⟩
  | .local _ .vmem, ⟨3, _⟩ => ⟨S1024x64, .f32⟩
  | .local _ .vmem, ⟨4, _⟩ => ⟨S1024x65, .f32⟩
  | .local _ .vmem, ⟨5, _⟩ => ⟨S1024x65, .f32⟩
  | .local _ .vmem, ⟨6, _⟩ => ⟨S1024x64, .f32⟩
  | .local _ .vmem, ⟨7, _⟩ => ⟨S1024x64, .f32⟩
  | .local _ .vmem, ⟨8, _⟩ => ⟨S1024x1, .f32⟩
  | .local _ .vmem, ⟨9, _⟩ => ⟨S1024x1, .f32⟩
  | .local _ .vmem, ⟨10, _⟩ => ⟨S1024x64, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v42 : BitVec 1 := Scalar.cmpi .eq arg1 c7_i32
  let v43 : BitVec 32 := Scalar.extui v42
  let c0_i32_21 : BitVec 32 := 0#32
  let v44 : BitVec 1 := Scalar.cmpi .ne v43 c0_i32_21
  v44

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x65 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S8192x1 : S_.BroadcastsInDim S8192x1 (![] : Fin 0 → Fin S8192x1.rank)
  concatenates_S8192x64_S8192x1_S8192x65_d1 : Shape.Concatenates [S8192x64, S8192x1] S8192x65 1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  bitsLt_bf16_f32 : FTy.bits .bf16 < FTy.bits .f32
  reduces_S1024x1024_S1024 : S1024x1024.Reduces [1] S1024
  shapeCasts_S1024_S1024x1 : S1024.ShapeCasts S1024x1
  broadcasts_S1024x1_S1024x1024 : S1024x1.Broadcasts S1024x1024
  inb_S1024x65_S1024x65_0_0 : ∀ a, (![0, 0] : Fin 2 → Nat) a + S1024x65.size a ≤ S1024x65.size a
  h_S1024x65 : 0 < S1024x65.numel
  shapeCasts_S1024x65_S1024x65 : S1024x65.ShapeCasts S1024x65
  slices_S1024x65_o0_0_S1024x64 : S1024x65.Slices ![0, 0] S1024x64
  slices_S1024x65_o0_64_S1024x1 : S1024x65.Slices ![0, 64] S1024x1
  broadcasts_S1024x1_S1024x64 : S1024x1.Broadcasts S1024x64
  dot_S1024x64_S1024x64_S1024x1024_1_1_0_0_n_n_wf : DotDims.WF S1024x64 S1024x64 S1024x1024 [1] [1] [0] [0] [] []
  dot_S1024x1024_S1024x65_S1024x65_1_0_0_1_n_n_wf : DotDims.WF S1024x1024 S1024x65 S1024x65 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .f32 = 32 ∨ (Rect.block (s := S8192x64) S1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .f32 = 32 ∨ (Rect.block (s := S8192x64) S1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x65.size a ≤ S8192x65.size a
  hwx0_2 : ∀ i : grid0.Coords, EltTy.bits .f32 = 32 ∨ (Rect.block (s := S8192x65) S1024x65.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S8192x64.size a
  hwx0_3 : ∀ i : grid0.Coords, EltTy.bits .f32 = 32 ∨ (Rect.block (s := S8192x64) S1024x64.size (cc0_transform_3 i) (hinb0_3 i)).WholeWords (EltTy.packing .f32)

variable [Facts₀]

def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x65_S1024x65_1_0_0_1_n_n : DotDims S1024x1024 S1024x65 S1024x65 where
  lhsContracting := [1]
  rhsContracting := [0]
  lhsNonContracting := [0]
  rhsNonContracting := [1]
  lhsBatch := []
  rhsBatch := []
  wf := dot_S1024x1024_S1024x65_S1024x65_1_0_0_1_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x65.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x64 : Shape := ⟨2, ![8192, 64]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 23
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S8192x64, .f32⟩
  | .hbm, ⟨3, _⟩ => ⟨S8192x8192, .f32⟩
  | .hbm, ⟨4, _⟩ => ⟨S_, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S_, .f32⟩
  | .hbm, ⟨9, _⟩ => ⟨S8192, .f32⟩
  | .hbm, ⟨10, _⟩ => ⟨S_, .f32⟩
  | .hbm, ⟨11, _⟩ => ⟨S8192, .f32⟩
  | .hbm, ⟨12, _⟩ => ⟨S8192, .f32⟩
  | .hbm, ⟨13, _⟩ => ⟨S8192x1, .f32⟩
  | .hbm, ⟨14, _⟩ => ⟨S8192x8192, .f32⟩
  | .hbm, ⟨15, _⟩ => ⟨S8192x8192, .f32⟩
  | .hbm, ⟨16, _⟩ => ⟨S8192x8192, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S8192x8192, .f32⟩
  | .hbm, ⟨21, _⟩ => ⟨S8192x8192, .f32⟩
  | .hbm, ⟨22, _⟩ => ⟨S8192x64, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x64_S8192x64_S8192x8192_1_1_0_0_n_n_wf : DotDims.WF S8192x64 S8192x64 S8192x8192 [1] [1] [0] [0] [] []
  dot_S8192x8192_S8192x64_S8192x64_1_0_0_1_n_n_wf : DotDims.WF S8192x8192 S8192x64 S8192x64 [1] [0] [0] [1] [] []

variable [Facts₀]

def dot_S8192x64_S8192x64_S8192x8192_1_1_0_0_n_n : DotDims S8192x64 S8192x64 S8192x8192 where
  lhsContracting := [1]
  rhsContracting := [1]
  lhsNonContracting := [0]
  rhsNonContracting := [0]
  lhsBatch := []
  rhsBatch := []
  wf := dot_S8192x64_S8192x64_S8192x8192_1_1_0_0_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf

class Facts : Prop extends Facts₀ where

variable [Facts]
-- ==== Proof.AttnPieces.lean ====
/-
  What each control case of the kernel body leaves in its three carried scratch buffers and, at the last key/value
  block, in the output block: every buffer is stored whole, so what a case leaves is the payload of its last store,
  a pure function of the input blocks and of what the buffers held before.
-/
import proofs.«111689_j4733053960504_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Online

open Cert.KernelIdeal Cert.KernelIdeal.Gen

variable {F : FTy → Type} [FloatOps F]

theorem hz : (![0, 0] : Fin 2 → Nat) = fun _ => 0 := funext fun a => by fin_cases a <;> rfl

/-- Case A leaves in the scratch for the running maximum its last store's payload. -/
theorem scratch_A_0 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x65 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : cond0_0 i) (hc1 : ¬cond0_1 i)
    (x0 : Vec F S1024x64 .f32) (x1 : Vec F S1024x64 .f32) (x2 : Vec F S1024x65 .f32) :
    sout0_A_0 c i arg2 harg2 arg3 harg3 arg4 harg4 arg5 harg5 arg6 harg6 arg7 harg7 arg8 harg8 hc0 hc1 x0 x1 x2 = k0_pay2 (k0_pay8 x0 x1 k0_pay4) := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1024x1) hz]
  simp only [View.readCov_unit_zero (S := S1024x1) _ hz, View.readCov_unit_zero (S := S1024x64) _ hz, View.readAt_eq_ld, harg2.read_unread, harg3.read_unread, harg4.read_unread, harg6.read_unread, harg7.read_unread, harg8.read_unread, View.ld_unit_zero (S := S1024x64) hz, View.ld_unit_zero (S := S1024x65) hz, View.ld_unit_zero (S := S1024x1) hz]

/-- Case A leaves in the scratch for the running weight sum its last store's payload. -/
theorem scratch_A_1 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x65 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : cond0_0 i) (hc1 : ¬cond0_1 i)
    (x0 : Vec F S1024x64 .f32) (x1 : Vec F S1024x64 .f32) (x2 : Vec F S1024x65 .f32) :
    sout0_A_1 c i arg2 harg2 arg3 harg3 arg4 harg4 arg5 harg5 arg6 harg6 arg7 harg7 arg8 harg8 hc0 hc1 x0 x1 x2 = k0_pay11 x0 x1 k0_pay4 x2 k0_pay5 := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1024x1) hz]
  simp only [View.readCov_unit_zero (S := S1024x1) _ hz, View.readCov_unit_zero (S := S1024x64) _ hz, View.readAt_eq_ld, harg2.read_unread, harg3.read_unread, harg4.read_unread, harg6.read_unread, harg7.read_unread, harg8.read_unread, View.ld_unit_zero (S := S1024x64) hz, View.ld_unit_zero (S := S1024x65) hz, View.ld_unit_zero (S := S1024x1) hz]

/-- Case A leaves in the scratch for the running weighted sum its last store's payload. -/
theorem scratch_A_2 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x65 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : cond0_0 i) (hc1 : ¬cond0_1 i)
    (x0 : Vec F S1024x64 .f32) (x1 : Vec F S1024x64 .f32) (x2 : Vec F S1024x65 .f32) :
    sout0_A_2 c i arg2 harg2 arg3 harg3 arg4 harg4 arg5 harg5 arg6 harg6 arg7 harg7 arg8 harg8 hc0 hc1 x0 x1 x2 = k0_pay1 (k0_pay12 x0 x1 k0_pay4 x2 k0_pay6) := by
  unfold sout0_A_2
  rw [View.read_writes_eq_canon _ _ _ (scover0_A_2 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S1024x64) hz]
  simp only [View.readCov_unit_zero (S := S1024x1) _ hz, View.readCov_unit_zero (S := S1024x64) _ hz, View.readAt_eq_ld, harg2.read_unread, harg3.read_unread, harg4.read_unread, harg6.read_unread, harg7.read_unread, harg8.read_unread, View.ld_unit_zero (S := S1024x64) hz, View.ld_unit_zero (S := S1024x65) hz, View.ld_unit_zero (S := S1024x1) hz]

/-- Case B leaves in the scratch for the running maximum its last store's payload. -/
theorem scratch_B_0 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x65 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : ¬cond0_0 i) (hc1 : ¬cond0_1 i)
    (x0 : Vec F S1024x64 .f32) (x1 : Vec F S1024x64 .f32) (x2 : Vec F S1024x65 .f32) (xs0 : Vec F S1024x1 .f32) (xs1 : Vec F S1024x1 .f32) (xs2 : Vec F S1024x64 .f32) :
    sout0_B_0 c i arg2 harg2 arg3 harg3 arg4 harg4 arg5 harg5 arg6 harg6 arg7 harg7 arg8 harg8 hc0 hc1 x0 x1 x2 xs0 xs1 xs2 = k0_pay2 (k0_pay8 x0 x1 xs0) := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero (S := S1024x1) hz]
  simp only [View.readAt_eq_ld, harg2.read_unread, harg3.read_unread, harg4.read_unread, harg6.read_unread, harg7.read_unread, harg8.read_unread, View.ld_unit_zero (S := S1024x64) hz, View.ld_unit_zero (S := S1024x65) hz, View.ld_unit_zero (S := S1024x1) hz]

/-- Case B leaves in the scratch for the running weight sum its last store's payload. -/
theorem scratch_B_1 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x65 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : ¬cond0_0 i) (hc1 : ¬cond0_1 i)
    (x0 : Vec F S1024x64 .f32) (x1 : Vec F S1024x64 .f32) (x2 : Vec F S1024x65 .f32) (xs0 : Vec F S1024x1 .f32) (xs1 : Vec F S1024x1 .f32) (xs2 : Vec F S1024x64 .f32) :
    sout0_B_1 c i arg2 harg2 arg3 harg3 arg4 harg4 arg5 harg5 arg6 harg6 arg7 harg7 arg8 harg8 hc0 hc1 x0 x1 x2 xs0 xs1 xs2 = k0_pay11 x0 x1 xs0 x2 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero (S := S1024x1) hz]
  simp only [View.readAt_eq_ld, harg2.read_unread, harg3.read_unread, harg4.read_unread, harg6.read_unread, harg7.read_unread, harg8.read_unread, View.ld_unit_zero (S := S1024x64) hz, View.ld_unit_zero (S := S1024x65) hz, View.ld_unit_zero (S := S1024x1) hz]

/-- Case B leaves in the scratch for the running weighted sum its last store's payload. -/
theorem scratch_B_2 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x65 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : ¬cond0_0 i) (hc1 : ¬cond0_1 i)
    (x0 : Vec F S1024x64 .f32) (x1 : Vec F S1024x64 .f32) (x2 : Vec F S1024x65 .f32) (xs0 : Vec F S1024x1 .f32) (xs1 : Vec F S1024x1 .f32) (xs2 : Vec F S1024x64 .f32) :
    sout0_B_2 c i arg2 harg2 arg3 harg3 arg4 harg4 arg5 harg5 arg6 harg6 arg7 harg7 arg8 harg8 hc0 hc1 x0 x1 x2 xs0 xs1 xs2 = k0_pay1 (k0_pay12 x0 x1 xs0 x2 xs2) := by
  unfold sout0_B_2
  rw [View.read_writes_eq_canon _ _ _ (scover0_B_2 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero (S := S1024x64) hz]
  simp only [View.readAt_eq_ld, harg2.read_unread, harg3.read_unread, harg4.read_unread, harg6.read_unread, harg7.read_unread, harg8.read_unread, View.ld_unit_zero (S := S1024x64) hz, View.ld_unit_zero (S := S1024x65) hz, View.ld_unit_zero (S := S1024x1) hz]

/-- Case C leaves in the scratch for the running maximum its last store's payload. -/
theorem scratch_C_0 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x65 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : ¬cond0_0 i) (hc1 : cond0_1 i)
    (x0 : Vec F S1024x64 .f32) (x1 : Vec F S1024x64 .f32) (x2 : Vec F S1024x65 .f32) (xs0 : Vec F S1024x1 .f32) (xs1 : Vec F S1024x1 .f32) (xs2 : Vec F S1024x64 .f32) :
    sout0_C_0 c i arg2 harg2 arg3 harg3 arg4 harg4 arg5 harg5 arg6 harg6 arg7 harg7 arg8 harg8 hc0 hc1 x0 x1 x2 xs0 xs1 xs2 = k0_pay2 (k0_pay8 x0 x1 xs0) := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero (S := S1024x1) hz]
  simp only [View.readAt_eq_ld, harg2.read_unread, harg3.read_unread, harg4.read_unread, harg6.read_unread, harg7.read_unread, harg8.read_unread, View.ld_unit_zero (S := S1024x64) hz, View.ld_unit_zero (S := S1024x65) hz, View.ld_unit_zero (S := S1024x1) hz]

/-- Case C leaves in the scratch for the running weight sum its last store's payload. -/
theorem scratch_C_1 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x65 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : ¬cond0_0 i) (hc1 : cond0_1 i)
    (x0 : Vec F S1024x64 .f32) (x1 : Vec F S1024x64 .f32) (x2 : Vec F S1024x65 .f32) (xs0 : Vec F S1024x1 .f32) (xs1 : Vec F S1024x1 .f32) (xs2 : Vec F S1024x64 .f32) :
    sout0_C_1 c i arg2 harg2 arg3 harg3 arg4 harg4 arg5 harg5 arg6 harg6 arg7 harg7 arg8 harg8 hc0 hc1 x0 x1 x2 xs0 xs1 xs2 = k0_pay11 x0 x1 xs0 x2 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero (S := S1024x1) hz]
  simp only [View.readAt_eq_ld, harg2.read_unread, harg3.read_unread, harg4.read_unread, harg6.read_unread, harg7.read_unread, harg8.read_unread, View.ld_unit_zero (S := S1024x64) hz, View.ld_unit_zero (S := S1024x65) hz, View.ld_unit_zero (S := S1024x1) hz]

/-- Case C leaves in the scratch for the running weighted sum its last store's payload. -/
theorem scratch_C_2 (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x65 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : ¬cond0_0 i) (hc1 : cond0_1 i)
    (x0 : Vec F S1024x64 .f32) (x1 : Vec F S1024x64 .f32) (x2 : Vec F S1024x65 .f32) (xs0 : Vec F S1024x1 .f32) (xs1 : Vec F S1024x1 .f32) (xs2 : Vec F S1024x64 .f32) :
    sout0_C_2 c i arg2 harg2 arg3 harg3 arg4 harg4 arg5 harg5 arg6 harg6 arg7 harg7 arg8 harg8 hc0 hc1 x0 x1 x2 xs0 xs1 xs2 = k0_pay1 (k0_pay12 x0 x1 xs0 x2 xs2) := by
  unfold sout0_C_2
  rw [View.read_writes_eq_canon _ _ _ (scover0_C_2 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero (S := S1024x64) hz]
  simp only [View.readAt_eq_ld, harg2.read_unread, harg3.read_unread, harg4.read_unread, harg6.read_unread, harg7.read_unread, harg8.read_unread, View.ld_unit_zero (S := S1024x64) hz, View.ld_unit_zero (S := S1024x65) hz, View.ld_unit_zero (S := S1024x1) hz]

/-- The last key/value block also stores the output block: the weighted sum divided by the weight sum, both as
    just updated. -/
theorem out_C (c : Dev nD) (i : grid0.Coords) (arg2 : Memref sig .tc .vmem S1024x64 .f32) (harg2 : arg2.IsWhole) (arg3 : Memref sig .tc .vmem S1024x64 .f32) (harg3 : arg3.IsWhole) (arg4 : Memref sig .tc .vmem S1024x65 .f32) (harg4 : arg4.IsWhole) (arg5 : Memref sig .tc .vmem S1024x64 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x64 .f32) (harg8 : arg8.IsWhole) (hc0 : ¬cond0_0 i) (hc1 : cond0_1 i)
    (x0 : Vec F S1024x64 .f32) (x1 : Vec F S1024x64 .f32) (x2 : Vec F S1024x65 .f32) (xs0 : Vec F S1024x1 .f32) (xs1 : Vec F S1024x1 .f32) (xs2 : Vec F S1024x64 .f32) :
    out0_C_3 c i arg2 harg2 arg3 harg3 arg4 harg4 arg5 harg5 arg6 harg6 arg7 harg7 arg8 harg8 hc0 hc1 x0 x1 x2 xs0 xs1 xs2
      = k0_pay3 (k0_pay1 (k0_pay12 x0 x1 xs0 x2 xs2)) (k0_pay11 x0 x1 xs0 x2 xs1) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero (S := S1024x64) hz]
  simp only [View.readCov_unit_zero (S := S1024x1) _ hz, View.readCov_unit_zero (S := S1024x64) _ hz, View.readAt_eq_ld, harg2.read_unread, harg3.read_unread, harg4.read_unread, harg6.read_unread, harg7.read_unread, harg8.read_unread, View.ld_unit_zero (S := S1024x64) hz, View.ld_unit_zero (S := S1024x65) hz, View.ld_unit_zero (S := S1024x1) hz]

end Cert.KernelIdeal.Online

end
-- ==== Proof.LibTransposedDot.lean ====
/-
  A matrix product whose right operand is contracted on its LAST axis, read at an entry.

  The dimension numbers "contract the left operand's columns with the right operand's columns, no batch axis"
  (`DotDims.transposedRhs M K N`: an `M × K` matrix against an `N × K` one) give, on the extended reals and
  into a zero accumulator, the entry `(p, q) ↦ ∑ k, lhs (p, k) * rhs (q, k)`: the product with the right
  operand's transpose. The contraction index of the library is a one-coordinate index; the bijection with
  `Fin K` moves the sum.
-/
import Idealize.ShloMosaic.PureOps.Ideal.Laws
import Idealize.ShloMosaic.Lib.ValueIdx

namespace LinkLoss

open Idealize.ShloMosaic Idealize.ShloMosaic.ValueIdx

variable {M K N : ℕ}

/-- The left operand's index at output entry `(p, q)` and contracted coordinate `k` is `(p, k)`. -/
theorem transposed_lhsIdx (p : Fin M) (q : Fin N) (k : Fin K) :
    (DotDims.transposedRhs M K N).lhsIdx (ix2 p q) ((contrEquiv1 (DotDims.transposedRhs M K N) K rfl rfl).symm k)
      = ix2 p k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single (cl := 1) rfl _ _).trans hk

/-- The right operand's index at output entry `(p, q)` and contracted coordinate `k` is `(q, k)`. -/
theorem transposed_rhsIdx (p : Fin M) (q : Fin N) (k : Fin K) :
    (DotDims.transposedRhs M K N).rhsIdx (ix2 p q) ((contrEquiv1 (DotDims.transposedRhs M K N) K rfl rfl).symm k)
      = ix2 q k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single (cr := 1) rfl _ _).trans hk

/-- The matrix unit accumulating into the zero vector, read at entry `(p, q)`. -/
theorem transposed_matmul_zero_apply {φ₁ φ₂ : FTy} (lhs : FVec Ideal ⟨2, ![M, K]⟩ φ₁) (rhs : FVec Ideal ⟨2, ![N, K]⟩ φ₂)
    (prec : Option ContractPrecision) (p : Fin M) (q : Fin N) :
    FloatOps.matmul (DotDims.transposedRhs M K N) prec lhs rhs (constant ⟨2, ![M, N]⟩ .f32 0x00000000#32) (ix2 p q)
      = ∑ k : Fin K, lhs (ix2 p k) * rhs (ix2 q k) := by
  refine (Ideal.matmul_constant_zero_apply (DotDims.transposedRhs M K N) prec lhs rhs (ix2 p q)).trans ?_
  rw [← Equiv.sum_comp (contrEquiv1 (DotDims.transposedRhs M K N) K rfl rfl).symm]
  refine Finset.sum_congr rfl fun k _ => ?_
  rw [transposed_lhsIdx, transposed_rhsIdx]

end LinkLoss
-- ==== Proof.LibTransposedRecord.lean ====
/-
  A printed matrix-product record read as the product with the right operand's transpose.

  A matrix product of an [M, K] by an [N, K] operand that contracts the columns of both operands and has no
  batch axis is determined by its six lists of axes; the record's last field is a proof. So any record with those
  lists IS the record of the product with the transposed right operand, and at entry (p, q) the product
  accumulated into zero is the sum over k of lhs (p, k) * rhs (q, k), on the extended reals.
-/
import proofs.«111689_j4733053960504_2_alg».proof.Proof.LibTransposedDot

namespace TransposedRecord

open Idealize.ShloMosaic Idealize.ShloMosaic.ValueIdx

variable {M K N : ℕ}

/-- A record whose six axis lists contract both operands' last axes is the transposed-right-operand record. -/
theorem eq_transposedRhs (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = []) :
    d = DotDims.transposedRhs M K N := by
  obtain ⟨lc, rc, ln, rn, lb, rb, wf⟩ := d
  simp only at h1 h2 h3 h4 h5 h6
  subst h1 h2 h3 h4 h5 h6
  rfl

/-- The matrix unit accumulating into the zero vector, under any record with those lists, at entry (p, q):
    the row p of the left operand against the row q of the right one. -/
theorem matmul_zero_apply {φ₁ φ₂ : FTy} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (lhs : FVec Ideal ⟨2, ![M, K]⟩ φ₁) (rhs : FVec Ideal ⟨2, ![N, K]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 q k) := by
  rw [eq_transposedRhs d h1 h2 h3 h4 h5 h6]
  exact LinkLoss.transposed_matmul_zero_apply lhs rhs prec p q

end TransposedRecord
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«111689_j4733053960504_2_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.LibSoftmaxLaw.lean ====
/-
  Softmax-weighted sums on the extended reals: dividing late or early.

  For a row of scores s and a row of values v, write m for the row's maximum (the fold of max from ⊥),
  p j = exp (s j - m) for the weights and l = ∑ j, p j for their sum. One program forms (∑ j, p j * v j) / l, the
  other ∑ j, (p j / l) * v j. On the extended reals these agree as soon as every score and every value is a real
  number: then m is a real, every weight is a positive real, l is a positive real, and the identity is the real one
  (a sum times a constant is the sum of the products). Without that hypothesis it can fail (an infinite score makes
  a weight infinite and the quotient junk).

  Also here: the coercion of a finite real sum, that a finite sum of products of reals is a real, and the three float
  patterns the two programs spell for the score scale, with 1024 ^ (-1/2) = 1/32.
-/
import Idealize.ShloMosaic.PureOps.Ideal

noncomputable section

namespace Attn

open Idealize.ShloMosaic

/-! ## Real sums and real maxima inside the extended reals -/

/-- The coercion of a finite real sum is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of products of reals is a real. -/
theorem sum_mul_real {ι : Type} [Fintype ι] (f g : ι → EReal) (hf : ∀ i, ∃ r : ℝ, f i = r) (hg : ∀ i, ∃ r : ℝ, g i = r) :
    ∃ r : ℝ, ∑ i, f i * g i = r := by
  choose F hF using hf
  choose G hG using hg
  refine ⟨∑ i, F i * G i, ?_⟩
  rw [coe_sum]
  exact Finset.sum_congr rfl fun i _ => by rw [hF, hG, EReal.coe_mul]

/-- The fold of max from ⊥ over finitely many reals is ⊥ or a real. -/
theorem fold_max_bot_or_real {ι : Type} (s : Finset ι) (f : ι → ℝ) :
    s.fold max (⊥ : EReal) (fun i => (f i : EReal)) = ⊥ ∨ ∃ r : ℝ, s.fold max (⊥ : EReal) (fun i => (f i : EReal)) = r := by
  classical
  induction s using Finset.induction_on with
  | empty => left; rfl
  | insert a s ha ih =>
    right
    rw [Finset.fold_insert ha]
    rcases ih with h | ⟨r, h⟩
    · exact ⟨f a, by rw [h, max_eq_left bot_le]⟩
    · exact ⟨max (f a) r, by rw [h]; exact (EReal.coe_strictMono.monotone.map_max).symm⟩

variable {T : ℕ}

/-- The row maximum: the fold of max from ⊥ over the row. -/
def rowMax (s : Fin T → EReal) : EReal := (Finset.univ : Finset (Fin T)).fold max ⊥ s

/-- The maximum of a nonempty row of reals is a real. -/
theorem rowMax_real (S : Fin T → ℝ) (j0 : Fin T) : ∃ M : ℝ, rowMax (fun j => (S j : EReal)) = M := by
  rcases fold_max_bot_or_real Finset.univ S with h | h
  · exfalso
    have hle : ((S j0 : ℝ) : EReal) ≤ (Finset.univ : Finset (Fin T)).fold max (⊥ : EReal) (fun i => (S i : EReal)) :=
      (_root_.Finset.le_fold_max (c := ((S j0 : ℝ) : EReal))).2 (Or.inr ⟨j0, Finset.mem_univ _, le_rfl⟩)
    rw [h] at hle
    exact EReal.coe_ne_bot _ (le_bot_iff.mp hle)
  · exact h

/-- The weight of entry j: exp of the score minus the row maximum. -/
def weight (s : Fin T → EReal) (j : Fin T) : EReal := Ideal.exp (s j - rowMax s)

/-- The sum of the row's weights. -/
def denom (s : Fin T → EReal) : EReal := ∑ j, weight s j

/-- Divide late: the weighted sum of the values, divided by the sum of the weights. -/
def outLate (s v : Fin T → EReal) : EReal := Ideal.div (∑ j, weight s j * v j) (denom s)

/-- Divide early: every weight divided by the sum of the weights, then the weighted sum of the values. -/
def outEarly (s v : Fin T → EReal) : EReal := ∑ j, Ideal.div (weight s j) (denom s) * v j

/-- For a nonempty row of real scores and real values the two forms agree. -/
theorem outEarly_eq_outLate (s v : Fin T → EReal) (j0 : Fin T) (hs : ∀ j, ∃ r : ℝ, s j = r) (hv : ∀ j, ∃ r : ℝ, v j = r) :
    outEarly s v = outLate s v := by
  choose S hS using hs
  choose V hV using hv
  have hs' : s = fun j => (S j : EReal) := funext hS
  obtain ⟨M, hM⟩ := rowMax_real S j0
  have hw : ∀ j, weight s j = ((Real.exp (S j - M) : ℝ) : EReal) := fun j => by
    unfold weight
    rw [hs', hM, ← EReal.coe_sub, Ideal.exp_coe]
  have hL : denom s = ((∑ j, Real.exp (S j - M) : ℝ) : EReal) := by
    unfold denom
    rw [coe_sum]
    exact Finset.sum_congr rfl fun j _ => hw j
  have hpos : (0 : ℝ) < ∑ j, Real.exp (S j - M) :=
    Finset.sum_pos (fun j _ => Real.exp_pos _) ⟨j0, Finset.mem_univ _⟩
  unfold outEarly outLate
  rw [hL, Ideal.div_coe hpos.ne']
  have e1 : ∀ j, Ideal.div (weight s j) ((∑ j, Real.exp (S j - M) : ℝ) : EReal) * v j
      = ((Real.exp (S j - M) * (1 / ∑ j, Real.exp (S j - M)) * V j : ℝ) : EReal) := fun j => by
    rw [Ideal.div_coe hpos.ne', hw, hV, ← EReal.coe_mul, ← EReal.coe_mul]
  have e2 : ∀ j, weight s j * v j = ((Real.exp (S j - M) * V j : ℝ) : EReal) := fun j => by
    rw [hw, hV, ← EReal.coe_mul]
  rw [Finset.sum_congr rfl fun j _ => e1 j, Finset.sum_congr rfl fun j _ => e2 j, ← coe_sum, ← coe_sum, ← EReal.coe_mul]
  congr 1
  rw [Finset.sum_mul]
  exact Finset.sum_congr rfl fun j _ => by ring

/-! ## The float patterns of the score scale -/

/-- The pattern of 1024.0 denotes the real 1024. -/
theorem ofBits_1024 : Ideal.ofBits .f32 0x44800000#32 = ((1024 : ℝ) : EReal) := by
  simp [Ideal.ofBits, Ideal.ieee, -EReal.coe_mul]; norm_num

/-- The pattern of -0.5 denotes the real -1/2. -/
theorem ofBits_neg_half : Ideal.ofBits .f32 0xBF000000#32 = ((-(1 / 2) : ℝ) : EReal) := by
  simp [Ideal.ofBits, Ideal.ieee, -EReal.coe_mul]; norm_num

/-- The pattern of 0.03125 denotes the real 1/32. -/
theorem ofBits_inv32 : Ideal.ofBits .f32 0x3D000000#32 = ((1 / 32 : ℝ) : EReal) := by
  simp [Ideal.ofBits, Ideal.ieee, -EReal.coe_mul]; norm_num

/-- The pattern of +0.0 denotes 0. -/
theorem ofBits_zero : Ideal.ofBits .f32 0x00000000#32 = 0 := by
  simp [Ideal.ofBits, Ideal.ieee]

/-- The pattern of -∞ denotes ⊥. -/
theorem ofBits_neg_inf : Ideal.ofBits .f32 0xFF800000#32 = ⊥ := by simp [Ideal.ofBits, Ideal.ieee]

/-- 1024 to the power -1/2 is 1/32: 1024 is the square of 32. -/
theorem rpow_1024 : Real.rpow 1024 (-(1 / 2)) = 1 / 32 := by
  rw [show (1024 : ℝ) = 32 ^ (2 : ℝ) by norm_num, Real.rpow_eq_pow, ← Real.rpow_mul (by norm_num)]
  norm_num [Real.rpow_neg_one]

/-- The reference's scale, the power of the two patterns, is the kernel's literal. -/
theorem scale_eq : Ideal.pow (Ideal.ofBits .f32 0x44800000#32) (Ideal.ofBits .f32 0xBF000000#32)
    = Ideal.ofBits .f32 0x3D000000#32 := by
  rw [ofBits_1024, ofBits_neg_half, ofBits_inv32, Ideal.pow_coe_coe, rpow_1024]

end Attn

end
-- ==== Proof.LibOnlineSoftmax.lean ====
/-
  The block-by-block (running-maximum) softmax accumulation on the extended reals.

  A row of real scores arrives in blocks of B columns; block j has scores S j k and, for each output coordinate e,
  real values V j k e. A running maximum m, a running weight sum l and a running weighted sum acc e are updated by

      m' = max m (max over the block) ,  a = exp (m - m') ,
      l' = a * l + ∑ k, exp (s k - m') * 1 ,   acc' e = a * acc e + ∑ k, exp (s k - m') * v k e ,

  starting from m = ⊥, l = 0, acc = 0. After n ≥ 1 blocks there is a REAL shift μ (the maximum so far) with
  m = μ, l = ∑ over the first n blocks of exp (S - μ) and acc e = ∑ of exp (S - μ) * V: the rescaling factor
  a = exp (μ - μ') turns every old weight exp (S - μ) into exp (S - μ'), and on the first block a = exp ⊥ = 0
  multiplies zeros. The quotient acc e / l does not depend on the shift (a common positive factor cancels), so it is
  the softmax-weighted mean of the values for ANY real shift, in particular for the row's true maximum.
  Every score and value being a real is what makes the rescaling and the cancellation valid.
-/
import proofs.«111689_j4733053960504_2_alg».proof.Proof.LibSoftmaxLaw

noncomputable section

namespace OnlineSoftmax

open Idealize.ShloMosaic

variable {B : ℕ} {ι : Type}

/-- The sum of the weights exp (S - μ) over the first n blocks. -/
def den (S : ℕ → Fin B → ℝ) (n : ℕ) (μ : ℝ) : ℝ :=
  ∑ j ∈ Finset.range n, ∑ k : Fin B, Real.exp (S j k - μ)

/-- The weighted sum of the values of coordinate e over the first n blocks. -/
def num (S : ℕ → Fin B → ℝ) (V : ℕ → Fin B → ι → ℝ) (n : ℕ) (μ : ℝ) (e : ι) : ℝ :=
  ∑ j ∈ Finset.range n, ∑ k : Fin B, Real.exp (S j k - μ) * V j k e

/-- Changing the shift from μ to μ' multiplies every weight by exp (μ - μ'). -/
theorem den_shift (S : ℕ → Fin B → ℝ) (n : ℕ) (μ μ' : ℝ) : Real.exp (μ - μ') * den S n μ = den S n μ' := by
  unfold den
  rw [Finset.mul_sum]
  refine Finset.sum_congr rfl fun j _ => ?_
  rw [Finset.mul_sum]
  refine Finset.sum_congr rfl fun k _ => ?_
  rw [← Real.exp_add]
  congr 1; ring

theorem num_shift (S : ℕ → Fin B → ℝ) (V : ℕ → Fin B → ι → ℝ) (n : ℕ) (μ μ' : ℝ) (e : ι) :
    Real.exp (μ - μ') * num S V n μ e = num S V n μ' e := by
  unfold num
  rw [Finset.mul_sum]
  refine Finset.sum_congr rfl fun j _ => ?_
  rw [Finset.mul_sum]
  refine Finset.sum_congr rfl fun k _ => ?_
  rw [← mul_assoc, ← Real.exp_add]
  congr 2; ring

theorem den_succ (S : ℕ → Fin B → ℝ) (n : ℕ) (μ : ℝ) :
    den S (n + 1) μ = den S n μ + ∑ k : Fin B, Real.exp (S n k - μ) := Finset.sum_range_succ _ _

theorem num_succ (S : ℕ → Fin B → ℝ) (V : ℕ → Fin B → ι → ℝ) (n : ℕ) (μ : ℝ) (e : ι) :
    num S V (n + 1) μ e = num S V n μ e + ∑ k : Fin B, Real.exp (S n k - μ) * V n k e := Finset.sum_range_succ _ _

/-- With at least one block of at least one column the weight sum is positive. -/
theorem den_pos (S : ℕ → Fin B → ℝ) (n : ℕ) (μ : ℝ) (hn : 0 < n) (hB : 0 < B) : 0 < den S n μ :=
  Finset.sum_pos (fun j _ => Finset.sum_pos (fun k _ => Real.exp_pos _) ⟨⟨0, hB⟩, Finset.mem_univ _⟩)
    ⟨0, Finset.mem_range.mpr hn⟩

/-- The state after n blocks: the maximum so far is a real μ, and l, acc are the weight sum and the weighted sums
    at the shift μ. -/
def Inv (S : ℕ → Fin B → ℝ) (V : ℕ → Fin B → ι → ℝ) (n : ℕ) (m l : EReal) (acc : ι → EReal) : Prop :=
  ∃ μ : ℝ, m = (μ : EReal) ∧ l = ((den S n μ : ℝ) : EReal) ∧ ∀ e, acc e = ((num S V n μ e : ℝ) : EReal)

/-- The first block, from m = ⊥, l = 0, acc = 0: the factor exp (⊥ - m') is 0. -/
theorem first_block (S : ℕ → Fin B → ℝ) (V : ℕ → Fin B → ι → ℝ) (hB : 0 < B)
    (s : Fin B → EReal) (hs : ∀ k, s k = (S 0 k : EReal))
    (one : Fin B → EReal) (hone : ∀ k, one k = 1)
    (w : Fin B → ι → EReal) (hw : ∀ k e, w k e = (V 0 k e : EReal))
    (mn : EReal) (hmn : mn = max ⊥ ((Finset.univ : Finset (Fin B)).fold max ⊥ s)) :
    Inv S V 1 mn (Ideal.exp (⊥ - mn) * 0 + ∑ k, Ideal.exp (s k - mn) * one k)
      (fun e => Ideal.exp (⊥ - mn) * 0 + ∑ k, Ideal.exp (s k - mn) * w k e) := by
  obtain ⟨Mb, hMb⟩ := Attn.rowMax_real (S 0) ⟨0, hB⟩
  have hs' : s = fun k => (S 0 k : EReal) := funext hs
  have hmn' : mn = (Mb : EReal) := by
    rw [hmn, hs']; unfold Attn.rowMax at hMb; rw [hMb]; exact max_eq_right bot_le
  refine ⟨Mb, hmn', ?_, fun e => ?_⟩
  · rw [hmn', EReal.bot_sub, Ideal.exp_bot, mul_zero, zero_add, den_succ]
    unfold den
    rw [Finset.range_zero, Finset.sum_empty, zero_add, Attn.coe_sum]
    refine Finset.sum_congr rfl fun k _ => ?_
    rw [hs k, hone k, mul_one, ← EReal.coe_sub, Ideal.exp_coe]
  · show Ideal.exp (⊥ - mn) * 0 + ∑ k, Ideal.exp (s k - mn) * w k e = _
    rw [hmn', EReal.bot_sub, Ideal.exp_bot, mul_zero, zero_add, num_succ]
    unfold num
    rw [Finset.range_zero, Finset.sum_empty, zero_add, Attn.coe_sum]
    refine Finset.sum_congr rfl fun k _ => ?_
    rw [hs k, hw k e, ← EReal.coe_sub, Ideal.exp_coe, ← EReal.coe_mul]

/-- A later block: the old weights are rescaled to the new maximum and the block's are added. -/
theorem next_block (S : ℕ → Fin B → ℝ) (V : ℕ → Fin B → ι → ℝ) (hB : 0 < B) (n : ℕ)
    (s : Fin B → EReal) (hs : ∀ k, s k = (S n k : EReal))
    (one : Fin B → EReal) (hone : ∀ k, one k = 1)
    (w : Fin B → ι → EReal) (hw : ∀ k e, w k e = (V n k e : EReal))
    (m l : EReal) (acc : ι → EReal) (hinv : Inv S V n m l acc)
    (mn : EReal) (hmn : mn = max m ((Finset.univ : Finset (Fin B)).fold max ⊥ s)) :
    Inv S V (n + 1) mn (Ideal.exp (m - mn) * l + ∑ k, Ideal.exp (s k - mn) * one k)
      (fun e => Ideal.exp (m - mn) * acc e + ∑ k, Ideal.exp (s k - mn) * w k e) := by
  obtain ⟨μ, hm, hl, hacc⟩ := hinv
  obtain ⟨Mb, hMb⟩ := Attn.rowMax_real (S n) ⟨0, hB⟩
  have hs' : s = fun k => (S n k : EReal) := funext hs
  have hmn' : mn = ((max μ Mb : ℝ) : EReal) := by
    rw [hmn, hs', hm]; unfold Attn.rowMax at hMb; rw [hMb]
    exact (EReal.coe_strictMono.monotone.map_max).symm
  refine ⟨max μ Mb, hmn', ?_, fun e => ?_⟩
  · rw [hm, hmn', hl, den_succ, ← den_shift S n μ (max μ Mb), EReal.coe_add, EReal.coe_mul, Attn.coe_sum,
      ← EReal.coe_sub, Ideal.exp_coe]
    congr 1
    refine Finset.sum_congr rfl fun k _ => ?_
    rw [hs k, hone k, mul_one, ← EReal.coe_sub, Ideal.exp_coe]
  · show Ideal.exp (m - mn) * acc e + ∑ k, Ideal.exp (s k - mn) * w k e = _
    rw [hm, hmn', hacc e, num_succ, ← num_shift S V n μ (max μ Mb) e, EReal.coe_add, EReal.coe_mul, Attn.coe_sum,
      ← EReal.coe_sub, Ideal.exp_coe]
    congr 1
    refine Finset.sum_congr rfl fun k _ => ?_
    rw [hs k, hw k e, ← EReal.coe_sub, Ideal.exp_coe, ← EReal.coe_mul]

/-- The final quotient is the weighted mean of the values at ANY real shift M. -/
theorem quotient (S : ℕ → Fin B → ℝ) (V : ℕ → Fin B → ι → ℝ) (hB : 0 < B) (n : ℕ) (hn : 0 < n)
    (m l : EReal) (acc : ι → EReal) (hinv : Inv S V n m l acc) (M : ℝ) (e : ι) :
    Ideal.div (acc e) l = ((num S V n M e / den S n M : ℝ) : EReal) := by
  obtain ⟨μ, _, hl, hacc⟩ := hinv
  have hpos := den_pos S n μ hn hB
  rw [hl, hacc e, Ideal.div_coe hpos.ne', ← EReal.coe_mul]
  congr 1
  rw [← den_shift S n μ M, ← num_shift S V n μ M e, mul_div_mul_left _ _ (Real.exp_pos _).ne']
  ring

end OnlineSoftmax

end
-- ==== Proof.AttnTile.lean ====
/-
  The kernel body's arithmetic read at an entry, on the extended reals.

  For a query tile x0 (1024 rows, 64 features), a key tile x1 (1024 keys, 64 features), the extended value tile x2
  (1024 keys, 65 columns: the 64 value features and a column of ones) and the carried running maximum m, weight sum l
  and weighted sum acc of each query row:
    the score of row p against key kk is ∑ d, (x0 (p, d) * 1/8) * x1 (kk, d);
    the new maximum of row p is max (m p) (the largest score of the row);
    the rescaling factor is exp (m p - new maximum);
    the product with the extended value tile at (p, e) is ∑ kk, exp (score - new maximum) * x2 (kk, e);
    l and acc become factor * old + that product at column 64, respectively at column e < 64;
    the output is acc / l.
  Changes of float format are the identity here.
-/
import proofs.«111689_j4733053960504_2_alg».proof.Proof.Gen.KernelIdeal.Skeleton
import proofs.«111689_j4733053960504_2_alg».proof.Proof.LibTransposedRecord
import proofs.«111689_j4733053960504_2_alg».proof.Proof.LibDotRecord
import proofs.«111689_j4733053960504_2_alg».proof.Proof.LibRowOps
import proofs.«111689_j4733053960504_2_alg».proof.Proof.LibOnlineSoftmax
import Idealize.ShloMosaic.Lib.ValueLayout

noncomputable section

open Idealize.ShloMosaic Idealize.ShloMosaic.ValueIdx

namespace Cert.KernelIdeal.Tile

open Cert.KernelIdeal Cert.KernelIdeal.Gen

/-- Column e < 64 of the 65-column extended value tile. -/
def colv (e : Fin 64) : Fin 65 := ⟨e.val, by have := e.isLt; omega⟩
/-- The last column of the extended value tile, which holds the ones. -/
def col1 : Fin 65 := ⟨64, by decide⟩

/-- The score of query row p against key kk. -/
theorem score_apply (x0 x1 : FVec Ideal S1024x64 .f32) (p kk : Fin 1024) :
    k0_pay7 (F := Ideal) x0 x1 (ix2 p kk)
      = ∑ d : Fin 64, (x0 (ix2 p d) * Ideal.ofBits .f32 0x3E000000#32) * x1 (ix2 kk d) := by
  unfold k0_pay7
  exact TransposedRecord.matmul_zero_apply dot_S1024x64_S1024x64_S1024x1024_1_1_0_0_n_n rfl rfl rfl rfl rfl rfl _ _ none p kk

/-- The new running maximum of row p. -/
theorem newMax_apply (x0 x1 : FVec Ideal S1024x64 .f32) (xm : FVec Ideal S1024x1 .f32) (p : Fin 1024) :
    k0_pay8 (F := Ideal) x0 x1 xm (ix2 p (0 : Fin 1))
      = max (xm (ix2 p (0 : Fin 1))) ((Finset.univ : Finset (Fin 1024)).fold max ⊥ (fun kk => k0_pay7 (F := Ideal) x0 x1 (ix2 p kk))) := by
  unfold k0_pay8
  refine (maximumf_apply (s := S1024x1) (φ := .f32) xm _ (ix2 p (0 : Fin 1))).trans ?_
  refine congrArg (max (xm (ix2 p (0 : Fin 1)))) ?_
  refine (Gcn.Lib.shapeCast_a_a1_apply _ shapeCasts_S1024_S1024x1 p 0).trans ?_
  exact Gcn.Lib.rowMax_apply (k0_pay7 (F := Ideal) x0 x1) reduces_S1024x1024_S1024 (.inl rfl) rfl p

/-- The rescaling factor of row p. -/
theorem factor_apply (x0 x1 : FVec Ideal S1024x64 .f32) (xm : FVec Ideal S1024x1 .f32) (p : Fin 1024) :
    k0_pay9 (F := Ideal) x0 x1 xm (ix2 p (0 : Fin 1))
      = Ideal.exp (xm (ix2 p (0 : Fin 1)) - k0_pay8 (F := Ideal) x0 x1 xm (ix2 p (0 : Fin 1))) := by
  unfold k0_pay9
  rfl

/-- The weights of row p times the extended value tile, at column e. -/
theorem weighted_apply (x0 x1 : FVec Ideal S1024x64 .f32) (xm : FVec Ideal S1024x1 .f32) (x2 : FVec Ideal S1024x65 .f32)
    (p : Fin 1024) (e : Fin 65) :
    k0_pay10 (F := Ideal) x0 x1 xm x2 (ix2 p e)
      = ∑ kk : Fin 1024, Ideal.exp (k0_pay7 (F := Ideal) x0 x1 (ix2 p kk) - k0_pay8 (F := Ideal) x0 x1 xm (ix2 p (0 : Fin 1)))
          * x2 (ix2 kk e) := by
  unfold k0_pay10
  refine (DotRecord.matmul_zero_apply dot_S1024x1024_S1024x65_S1024x65_1_0_0_1_n_n rfl rfl rfl rfl rfl rfl _ _ none p e).trans ?_
  refine Finset.sum_congr rfl fun kk _ => ?_
  show Ideal.exp (k0_pay7 (F := Ideal) x0 x1 (ix2 p kk) - broadcastTo S1024x1024 (k0_pay8 (F := Ideal) x0 x1 xm) broadcasts_S1024x1_S1024x1024 (ix2 p kk))
      * shapeCast S1024x65 x2 shapeCasts_S1024x65_S1024x65 (ix2 kk e) = _
  rw [Gcn.Lib.broadcastTo_a1_ab_apply, shapeCast_self]

/-- The updated weight sum of row p. -/
theorem newSum_apply (x0 x1 : FVec Ideal S1024x64 .f32) (xm : FVec Ideal S1024x1 .f32) (x2 : FVec Ideal S1024x65 .f32)
    (xl : FVec Ideal S1024x1 .f32) (p : Fin 1024) :
    k0_pay11 (F := Ideal) x0 x1 xm x2 xl (ix2 p (0 : Fin 1))
      = k0_pay9 (F := Ideal) x0 x1 xm (ix2 p (0 : Fin 1)) * xl (ix2 p (0 : Fin 1))
        + k0_pay10 (F := Ideal) x0 x1 xm x2 (ix2 p col1) := by
  unfold k0_pay11
  rw [shapeCast_self]
  show k0_pay9 (F := Ideal) x0 x1 xm (ix2 p (0 : Fin 1)) * xl (ix2 p (0 : Fin 1))
      + extractStridedSlice S1024x1 ![0, 64] (k0_pay10 (F := Ideal) x0 x1 xm x2) slices_S1024x65_o0_64_S1024x1 (ix2 p (0 : Fin 1)) = _
  rw [slice2_axis1_apply 64 _ slices_S1024x65_o0_64_S1024x1 p (0 : Fin 1) col1 rfl]

/-- The updated weighted sum of row p at feature e. -/
theorem newAcc_apply (x0 x1 : FVec Ideal S1024x64 .f32) (xm : FVec Ideal S1024x1 .f32) (x2 : FVec Ideal S1024x65 .f32)
    (xa : FVec Ideal S1024x64 .f32) (p : Fin 1024) (e : Fin 64) :
    k0_pay12 (F := Ideal) x0 x1 xm x2 xa (ix2 p e)
      = k0_pay9 (F := Ideal) x0 x1 xm (ix2 p (0 : Fin 1)) * xa (ix2 p e)
        + k0_pay10 (F := Ideal) x0 x1 xm x2 (ix2 p (colv e)) := by
  unfold k0_pay12
  show broadcastTo S1024x64 (k0_pay9 (F := Ideal) x0 x1 xm) broadcasts_S1024x1_S1024x64 (ix2 p e) * xa (ix2 p e)
      + extractStridedSlice S1024x64 ![0, 0] (k0_pay10 (F := Ideal) x0 x1 xm x2) slices_S1024x65_o0_0_S1024x64 (ix2 p e) = _
  rw [Gcn.Lib.broadcastTo_a1_ab_apply, slice2_axis1_apply 0 _ slices_S1024x65_o0_0_S1024x64 p e (colv e) (by show e.val = 0 + e.val; omega)]

/-- The output of row p at feature e: the weighted sum over the weight sum. -/
theorem out_apply (xa : FVec Ideal S1024x64 .f32) (xl : FVec Ideal S1024x1 .f32) (p : Fin 1024) (e : Fin 64) :
    k0_pay3 (F := Ideal) xa xl (ix2 p e) = Ideal.div (xa (ix2 p e)) (xl (ix2 p (0 : Fin 1))) := by
  unfold k0_pay3
  show Ideal.div (xa (ix2 p e)) (broadcastTo S1024x64 xl broadcasts_S1024x1_S1024x64 (ix2 p e)) = _
  rw [Gcn.Lib.broadcastTo_a1_ab_apply]

/-- The stores of the scratch buffers pass their value through a cast to its own shape. -/
theorem keep1 (v : FVec Ideal S1024x64 .f32) : k0_pay1 (F := Ideal) v = v := by unfold k0_pay1; exact shapeCast_self _ _
theorem keep2 (v : FVec Ideal S1024x1 .f32) : k0_pay2 (F := Ideal) v = v := by unfold k0_pay2; exact shapeCast_self _ _

/-- The three reset values: -∞ for the maximum, 0 for the two sums. -/
theorem reset_max (i : S1024x1.Idx) : k0_pay4 (F := Ideal) i = ⊥ := by
  unfold k0_pay4
  rw [shapeCast_self]
  exact Gcn.Lib.ofBits_neg_inf_f32
theorem reset_sum (i : S1024x1.Idx) : k0_pay5 (F := Ideal) i = 0 := by
  unfold k0_pay5
  rw [shapeCast_self]
  show Ideal.ofBits .f32 0x00000000#32 = 0
  simp [Ideal.ofBits, Ideal.ieee]
theorem reset_acc (i : S1024x64.Idx) : k0_pay6 (F := Ideal) i = 0 := by
  unfold k0_pay6
  rw [shapeCast_self]
  show Ideal.ofBits .f32 0x00000000#32 = 0
  simp [Ideal.ofBits, Ideal.ieee]

/-! ## One key/value block of the accumulation, row by row -/

/-- A later key/value block, at query row p: if the carried maximum, weight sum and weighted sums of the row are those of
    the first n blocks, what the body stores are those of the first n + 1 — given that the tile's scores of the row are the
    reals S n, its last column the ones and its other columns the reals V n. -/
theorem step_row (S : ℕ → Fin 1024 → ℝ) (V : ℕ → Fin 1024 → Fin 64 → ℝ) (n : ℕ)
    (x0 x1 : FVec Ideal S1024x64 .f32) (x2 : FVec Ideal S1024x65 .f32)
    (xm xl : FVec Ideal S1024x1 .f32) (xa : FVec Ideal S1024x64 .f32) (p : Fin 1024)
    (hs : ∀ kk, k0_pay7 (F := Ideal) x0 x1 (ix2 p kk) = (S n kk : EReal))
    (hone : ∀ kk, x2 (ix2 kk col1) = 1)
    (hw : ∀ kk e, x2 (ix2 kk (colv e)) = (V n kk e : EReal))
    (hinv : OnlineSoftmax.Inv S V n (xm (ix2 p (0 : Fin 1))) (xl (ix2 p (0 : Fin 1))) (fun e => xa (ix2 p e))) :
    OnlineSoftmax.Inv S V (n + 1) (k0_pay2 (F := Ideal) (k0_pay8 x0 x1 xm) (ix2 p (0 : Fin 1)))
      (k0_pay11 (F := Ideal) x0 x1 xm x2 xl (ix2 p (0 : Fin 1)))
      (fun e => k0_pay1 (F := Ideal) (k0_pay12 x0 x1 xm x2 xa) (ix2 p e)) := by
  have key := OnlineSoftmax.next_block S V (by decide) n (fun kk => k0_pay7 (F := Ideal) x0 x1 (ix2 p kk)) hs
    (fun kk => x2 (ix2 kk col1)) hone (fun kk e => x2 (ix2 kk (colv e))) hw _ _ _ hinv
    (k0_pay8 (F := Ideal) x0 x1 xm (ix2 p (0 : Fin 1))) (newMax_apply x0 x1 xm p)
  have hacc : (fun e => k0_pay1 (F := Ideal) (k0_pay12 x0 x1 xm x2 xa) (ix2 p e))
      = fun e => Ideal.exp (xm (ix2 p (0 : Fin 1)) - k0_pay8 (F := Ideal) x0 x1 xm (ix2 p (0 : Fin 1))) * xa (ix2 p e)
          + ∑ kk, Ideal.exp (k0_pay7 (F := Ideal) x0 x1 (ix2 p kk) - k0_pay8 (F := Ideal) x0 x1 xm (ix2 p (0 : Fin 1)))
            * x2 (ix2 kk (colv e)) :=
    funext fun e => by rw [keep1, newAcc_apply, factor_apply, weighted_apply]
  rw [keep2, newSum_apply, factor_apply, weighted_apply, hacc]
  exact key

/-- The first key/value block, at query row p: from the reset values the body stores the maximum, weight sum and
    weighted sums of the first block. -/
theorem first_row (S : ℕ → Fin 1024 → ℝ) (V : ℕ → Fin 1024 → Fin 64 → ℝ)
    (x0 x1 : FVec Ideal S1024x64 .f32) (x2 : FVec Ideal S1024x65 .f32) (p : Fin 1024)
    (hs : ∀ kk, k0_pay7 (F := Ideal) x0 x1 (ix2 p kk) = (S 0 kk : EReal))
    (hone : ∀ kk, x2 (ix2 kk col1) = 1)
    (hw : ∀ kk e, x2 (ix2 kk (colv e)) = (V 0 kk e : EReal)) :
    OnlineSoftmax.Inv S V 1 (k0_pay2 (F := Ideal) (k0_pay8 x0 x1 (k0_pay4 (F := Ideal))) (ix2 p (0 : Fin 1)))
      (k0_pay11 (F := Ideal) x0 x1 (k0_pay4 (F := Ideal)) x2 (k0_pay5 (F := Ideal)) (ix2 p (0 : Fin 1)))
      (fun e => k0_pay1 (F := Ideal) (k0_pay12 x0 x1 (k0_pay4 (F := Ideal)) x2 (k0_pay6 (F := Ideal))) (ix2 p e)) := by
  have hmx := newMax_apply x0 x1 (k0_pay4 (F := Ideal)) p
  rw [reset_max] at hmx
  have key := OnlineSoftmax.first_block S V (by decide) (fun kk => k0_pay7 (F := Ideal) x0 x1 (ix2 p kk)) hs
    (fun kk => x2 (ix2 kk col1)) hone (fun kk e => x2 (ix2 kk (colv e))) hw
    (k0_pay8 (F := Ideal) x0 x1 (k0_pay4 (F := Ideal)) (ix2 p (0 : Fin 1))) hmx
  have hacc : (fun e => k0_pay1 (F := Ideal) (k0_pay12 x0 x1 (k0_pay4 (F := Ideal)) x2 (k0_pay6 (F := Ideal))) (ix2 p e))
      = fun e => Ideal.exp (⊥ - k0_pay8 (F := Ideal) x0 x1 (k0_pay4 (F := Ideal)) (ix2 p (0 : Fin 1))) * 0
          + ∑ kk, Ideal.exp (k0_pay7 (F := Ideal) x0 x1 (ix2 p kk) - k0_pay8 (F := Ideal) x0 x1 (k0_pay4 (F := Ideal)) (ix2 p (0 : Fin 1)))
            * x2 (ix2 kk (colv e)) :=
    funext fun e => by rw [keep1, newAcc_apply, factor_apply, weighted_apply, reset_max, reset_acc]
  rw [keep2, newSum_apply, factor_apply, weighted_apply, reset_max, reset_sum, hacc]
  exact key

end Cert.KernelIdeal.Tile

end
-- ==== Proof.AttnBlocks.lean ====
/-
  Where the kernel's blocks sit in the arrays.

  The grid has 8 × 8 points; point t works on query tile t / 8 (rows 1024 * (t / 8) + p of the query array and of the
  output) and on key/value tile t % 8 (rows 1024 * (t % 8) + kk of the key array and of the extended value array).
  The extended value array is built before the kernel runs: the value array with a column of ones appended, so its
  entry (r, e) is the value array's for e < 64 and 1 at e = 64.
-/
import proofs.«111689_j4733053960504_2_alg».proof.Proof.Gen.KernelIdeal.Frame
import proofs.«111689_j4733053960504_2_alg».proof.Proof.AttnTile
import Idealize.ShloMosaic.Lib.Pipeline.Value
import Idealize.ShloMosaic.Lib.StableHlo.Run

noncomputable section

open Idealize.ShloMosaic Idealize.ShloMosaic.TcCoe Idealize.SL.Sem Idealize.ShloMosaic.ValueIdx

namespace Cert.KernelIdeal.Blocks

open Cert.KernelIdeal Cert.KernelIdeal.Gen Cert.KernelIdeal.Tile

variable (m : (ℓ : Loc nD τ sig) → Buf (Elt Ideal) ℓ)

/-- The printed index maps over the grid: the query and output windows follow t / 8, the key and value windows t % 8. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val % 8 ∧ win0_2.index t (1 : Fin 2) = 0
    ∧ win0_3.index t (0 : Fin 2) = t.val / 8 ∧ win0_3.index t (1 : Fin 2) = 0 :=
  (by decide +kernel : ∀ t : Fin grid0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val % 8 ∧ win0_2.index t (1 : Fin 2) = 0
    ∧ win0_3.index t (0 : Fin 2) = t.val / 8 ∧ win0_3.index t (1 : Fin 2) = 0)

theorem t_lt (t : Fin cfg0.N) : t.val < 64 := lt_of_lt_of_eq t.isLt (show cfg0.N = 64 from N_0)

/-- The array row of row p of the query tile of point t. -/
def qrow (t : Fin cfg0.N) (p : Fin 1024) : Fin 8192 := ⟨1024 * (t.val / 8) + p.val, by have := t_lt t; omega⟩
/-- The array row of row kk of the key/value tile of point t. -/
def krow (t : Fin cfg0.N) (kk : Fin 1024) : Fin 8192 := ⟨1024 * (t.val % 8) + kk.val, by omega⟩

/-- The query tile of point t, at (p, d). -/
theorem iblk_q (c : Dev nD) (t : Fin cfg0.N) (p : Fin 1024) (d : Fin 64) :
    (iblk m c 0 t : Vec Ideal S1024x64 .f32) (ix2 p d) = V m c main_arg0 (ix2 (qrow t p) d) := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 1024 + 1 * p.val = 1024 * (t.val / 8) + p.val; rw [e0]; omega
  | ⟨1, _⟩ => show win0_0.index t (1 : Fin 2) * 64 + 1 * d.val = d.val; rw [e1]; omega

/-- The key tile of point t, at (kk, d). -/
theorem iblk_k (c : Dev nD) (t : Fin cfg0.N) (kk : Fin 1024) (d : Fin 64) :
    (iblk m c 1 t : Vec Ideal S1024x64 .f32) (ix2 kk d) = V m c main_arg1 (ix2 (krow t kk) d) := by
  obtain ⟨-, -, e0, e1, -⟩ := idx_facts t
  unfold iblk
  rw [View.read_apply]
  show V m c main_arg1 _ = V m c main_arg1 _
  congr 1
  funext a
  apply Fin.ext
  match a with
  | ⟨0, _⟩ => show win0_1.index t (0 : Fin 2) * 1024 + 1 * kk.val = 1024 * (t.val % 8) + kk.val; rw [e0]; omega
  | ⟨1, _⟩ => show win0_1.index t (1 : Fin 2) * 64 + 1 * d.val = d.val; rw [e1]; omega

/-- The extended value tile of point t, at (kk, e). -/
theorem iblk_v (c : Dev nD) (t : Fin cfg0.N) (kk : Fin 1024) (e : Fin 65) :
    (iblk m c 2 t : Vec Ideal S1024x65 .f32) (ix2 kk e) = V m c main_v1 (ix2 (krow t kk) e) := by
  obtain ⟨-, -, -, -, e0, e1, -⟩ := idx_facts t
  unfold iblk
  rw [View.read_apply]
  show V m c main_v1 _ = V m c main_v1 _
  congr 1
  funext a
  apply Fin.ext
  match a with
  | ⟨0, _⟩ => show win0_2.index t (0 : Fin 2) * 1024 + 1 * kk.val = 1024 * (t.val % 8) + kk.val; rw [e0]; omega
  | ⟨1, _⟩ => show win0_2.index t (1 : Fin 2) * 65 + 1 * e.val = e.val; rw [e1]; omega

/-- The extended value array as the host operations before the kernel build it. -/
theorem vext_eq (c : Dev nD) :
    (V m c main_v1 : S8192x65.Idx → EReal)
      = concatenate S8192x65 1 [⟨S8192x64, m ((c : Thread nD τ).loc main_arg2)⟩,
          ⟨S8192x1, broadcastInDim S8192x1 ![] bcast_S_S8192x1 (constant (F := Ideal) S_ .f32 0x3F800000#32)⟩]
          concatenates_S8192x64_S8192x1_S8192x65_d1 := by
  dsimp only [Gen.V, Gen.hostOps0]
  after_results

/-- The f32 word of 1.0 denotes 1. -/
theorem ofBits_one : Ideal.ofBits .f32 0x3F800000#32 = 1 := by
  have h : Ideal.ofBits .f32 0x3F800000#32 = ((1 : ℝ) : EReal) := by
    simp [Ideal.ofBits, Ideal.ieee, -EReal.coe_mul]; norm_num
  exact h.trans EReal.coe_one

/-- Its first 64 columns are the value array. -/
theorem vext_val (c : Dev nD) (r : Fin 8192) (e : Fin 64) :
    (V m c main_v1 : S8192x65.Idx → EReal) (ix2 r (colv e)) = m ((c : Thread nD τ).loc main_arg2) (ix2 r e) := by
  rw [vext_eq]
  exact concatenate_pair_apply_left (t := S8192x65) (s₁ := S8192x64) (s₂ := S8192x1) (1 : Fin 2) _ _
    concatenates_S8192x64_S8192x1_S8192x65_d1 (ix2 r (colv e)) rfl (ix2 r e)
    (fun b => match b with | ⟨0, _⟩ => rfl | ⟨1, _⟩ => rfl)

/-- Its last column is the ones. -/
theorem vext_one (c : Dev nD) (r : Fin 8192) :
    (V m c main_v1 : S8192x65.Idx → EReal) (ix2 r col1) = (1 : EReal) := by
  rw [vext_eq]
  refine (concatenate_pair_apply_right (t := S8192x65) (s₁ := S8192x64) (s₂ := S8192x1) (1 : Fin 2) _ _
    concatenates_S8192x64_S8192x1_S8192x65_d1 (ix2 r col1) rfl rfl
    (ix2 r (0 : Fin 1)) (fun b hb => match b, hb with | ⟨0, _⟩, _ => rfl | ⟨1, _⟩, hb => absurd rfl hb) rfl).trans ?_
  refine (broadcastInDim_apply _ bcast_S_S8192x1 _ (ix2 r (0 : Fin 1)) (fun a => a.elim0) (fun a => a.elim0)).trans ?_
  exact ofBits_one

end Cert.KernelIdeal.Blocks

end
-- ==== Proof.LibGroupedSum.lean ====
/-
  Grouping a finite sum.

  A sum over `K = J * B` consecutive coordinates equals the sum, over the `J` groups of `B` consecutive
  coordinates, of each group's sum: coordinate `kk` of group `s` is the coordinate `s * B + kk` of the whole range.
  Only associativity and commutativity of the addition enter, so the law holds in any commutative additive monoid —
  in particular on the extended reals, with no finiteness assumption.
-/
import Idealize.ShloMosaic.Lib.ValueIdx

namespace GroupedSum

/-- Coordinate `kk` of group `s` lies below `K = J * B`. -/
theorem group_lt {J B K : ℕ} (h : J * B = K) (s : Fin J) (kk : Fin B) : s.val * B + kk.val < K := by
  have h1 : s.val * B + kk.val < (s.val + 1) * B := by
    rw [Nat.succ_mul]; exact Nat.add_lt_add_left kk.isLt _
  have h2 : (s.val + 1) * B ≤ J * B := Nat.mul_le_mul_right B s.isLt
  rw [← h]; exact lt_of_lt_of_le h1 h2

/-- The sum over the whole range is the sum of the groups' sums. -/
theorem sum_groups {β : Type*} [AddCommMonoid β] {J B K : ℕ} (h : J * B = K) (f : Fin K → β) :
    ∑ k : Fin K, f k = ∑ s : Fin J, ∑ kk : Fin B, f ⟨s.val * B + kk.val, group_lt h s kk⟩ := by
  subst h
  rw [← Equiv.sum_comp finProdFinEquiv f, Fintype.sum_prod_type]
  refine Finset.sum_congr rfl fun s _ => Finset.sum_congr rfl fun kk _ => congrArg f (Fin.ext ?_)
  show kk.val + B * s.val = s.val * B + kk.val
  rw [Nat.mul_comm, Nat.add_comm]

end GroupedSum
-- ==== Proof.LibBlockedSoftmax.lean ====
/-
  A plain softmax-weighted mean over T = J * B columns, read block by block.

  One program computes, for a row of real scores Sc over T columns and real values Vc,

      ∑ c, (exp (s c - mx) / (0 + ∑ c', exp (s c' - mx))) * v c     with mx = max ⊥ (the largest score),

  dividing every weight by the weight sum before the weighted sum is taken. On the extended reals, for real data,
  this is the real number (∑ c, exp (Sc c - M) * Vc c) / (∑ c, exp (Sc c - M)) with M the real maximum; grouping the
  T columns into J blocks of B (column kk of block j is column j * B + kk) and cancelling the common factor
  exp (M - 0) of numerator and denominator, it is the quotient of the blocked sums at shift 0 — the form the
  block-by-block accumulation ends with (whose own shift cancels the same way).
-/
import proofs.«111689_j4733053960504_2_alg».proof.Proof.LibOnlineSoftmax
import proofs.«111689_j4733053960504_2_alg».proof.Proof.LibGroupedSum

noncomputable section

namespace BlockedSoftmax

open Idealize.ShloMosaic

variable {ι : Type}

/-- Column kk of block j among T columns (wrapped below T, which changes nothing while j * B + kk < T). -/
def col (B T : ℕ) (hT : 0 < T) (j : ℕ) (kk : Fin B) : Fin T := ⟨(j * B + kk.val) % T, Nat.mod_lt _ hT⟩

theorem col_of_lt {J B T : ℕ} (h : J * B = T) (hT : 0 < T) (j : Fin J) (kk : Fin B) :
    col B T hT j.val kk = ⟨j.val * B + kk.val, GroupedSum.group_lt h j kk⟩ :=
  Fin.ext (Nat.mod_eq_of_lt (GroupedSum.group_lt h j kk))

theorem col_val {B T : ℕ} (hT : 0 < T) (j : ℕ) (kk : Fin B) (hlt : j * B + kk.val < T) :
    (col B T hT j kk).val = j * B + kk.val := Nat.mod_eq_of_lt hlt

/-- A real sum over all T columns is the sum over the J blocks of the block sums. -/
theorem sum_cols {J B T : ℕ} (h : J * B = T) (hT : 0 < T) (f : Fin T → ℝ) :
    ∑ c : Fin T, f c = ∑ j ∈ Finset.range J, ∑ kk : Fin B, f (col B T hT j kk) := by
  rw [GroupedSum.sum_groups h f, ← Fin.sum_univ_eq_sum_range (fun j => ∑ kk : Fin B, f (col B T hT j kk)) J]
  refine Finset.sum_congr rfl fun j _ => Finset.sum_congr rfl fun kk _ => ?_
  rw [col_of_lt h hT j kk]

/-- The divide-early softmax-weighted mean of real data is the blocked quotient at shift 0. -/
theorem plain_eq_blocked {J B T : ℕ} (h : J * B = T) (hT : 0 < T)
    (Sc : Fin T → ℝ) (Vc : Fin T → ι → ℝ) (e : ι)
    (s : Fin T → EReal) (hs : ∀ c, s c = (Sc c : EReal))
    (v : Fin T → EReal) (hv : ∀ c, v c = (Vc c e : EReal))
    (mx : EReal) (hmx : mx = max ⊥ ((Finset.univ : Finset (Fin T)).fold max ⊥ s))
    (z : EReal) (hz : z = 0) :
    ∑ c, Ideal.div (Ideal.exp (s c - mx)) (z + ∑ c', Ideal.exp (s c' - mx)) * v c
      = ((OnlineSoftmax.num (fun j kk => Sc (col B T hT j kk)) (fun j kk e => Vc (col B T hT j kk) e) J 0 e
          / OnlineSoftmax.den (fun j kk => Sc (col B T hT j kk)) J 0 : ℝ) : EReal) := by
  obtain ⟨M, hM⟩ := Attn.rowMax_real Sc ⟨0, hT⟩
  have hs' : s = fun c => (Sc c : EReal) := funext hs
  have hmx' : mx = (M : EReal) := by
    rw [hmx, hs']; unfold Attn.rowMax at hM; rw [hM]; exact max_eq_right bot_le
  have hw : ∀ c, Ideal.exp (s c - mx) = ((Real.exp (Sc c - M) : ℝ) : EReal) := fun c => by
    rw [hs c, hmx', ← EReal.coe_sub, Ideal.exp_coe]
  obtain ⟨D, hD⟩ : ∃ D : ℝ, D = ∑ c, Real.exp (Sc c - M) := ⟨_, rfl⟩
  have hDpos : 0 < D := by
    rw [hD]; exact Finset.sum_pos (fun c _ => Real.exp_pos _) ⟨⟨0, hT⟩, Finset.mem_univ _⟩
  have hden : z + ∑ c', Ideal.exp (s c' - mx) = (D : EReal) := by
    rw [hz, zero_add, hD, Attn.coe_sum]; exact Finset.sum_congr rfl fun c _ => hw c
  rw [hden]
  have hterm : ∀ c, Ideal.div (Ideal.exp (s c - mx)) (D : EReal) * v c
      = ((Real.exp (Sc c - M) * (1 / D) * Vc c e : ℝ) : EReal) := fun c => by
    rw [Ideal.div_coe hDpos.ne', hw c, hv c, ← EReal.coe_mul, ← EReal.coe_mul]
  rw [Finset.sum_congr rfl fun c _ => hterm c, ← Attn.coe_sum]
  congr 1
  have hN : ∑ c, Real.exp (Sc c - M) * (1 / D) * Vc c e = (∑ c, Real.exp (Sc c - M) * Vc c e) / D := by
    rw [Finset.sum_div]; exact Finset.sum_congr rfl fun c _ => by ring
  rw [hN, hD, sum_cols h hT (fun c => Real.exp (Sc c - M) * Vc c e), sum_cols h hT (fun c => Real.exp (Sc c - M))]
  show OnlineSoftmax.num (fun j kk => Sc (col B T hT j kk)) (fun j kk e => Vc (col B T hT j kk) e) J M e
      / OnlineSoftmax.den (fun j kk => Sc (col B T hT j kk)) J M = _
  rw [← OnlineSoftmax.den_shift _ J M 0, ← OnlineSoftmax.num_shift _ _ J M 0 e,
    mul_div_mul_left _ _ (Real.exp_pos _).ne']

end BlockedSoftmax

end
-- ==== Proof.AttnSpec.lean ====
/-
  The specification: scaled dot-product attention as one function of real arrays.

  For real arrays Qf, Kf, Vf of 8192 rows and 64 features, the score of query row r against key row c is
  ∑ d, Qf (r, d) * (1/8) * Kf (c, d)  (1/8 = 1/sqrt 64), and the result at (r, e) is the softmax-weighted mean of
  column e of Vf under row r's scores, written over the 8 blocks of 1024 key rows at shift 0:
  (∑ over blocks and columns of exp (score) * Vf) / (∑ of exp (score)).
-/
import proofs.«111689_j4733053960504_2_alg».proof.Proof.LibBlockedSoftmax
import Idealize.ShloMosaic.Lib.ValueIdx

noncomputable section

namespace AttnSpec

open Idealize.ShloMosaic Idealize.ShloMosaic.ValueIdx

/-- A real 8192 × 64 array. -/
abbrev Mat := (⟨2, ![8192, 64]⟩ : Shape).Idx → ℝ

/-- Key row kk of key block j. -/
abbrev kcol (j : ℕ) (kk : Fin 1024) : Fin 8192 := BlockedSoftmax.col 1024 8192 (by decide) j kk

/-- The scaled score of query row r against key row c. -/
def score (Qf Kf : Mat) (r c : Fin 8192) : ℝ := ∑ d : Fin 64, Qf (ix2 r d) * (1 / 8) * Kf (ix2 c d)

/-- Row r's scores, block by block. -/
def Srow (Qf Kf : Mat) (r : Fin 8192) : ℕ → Fin 1024 → ℝ := fun j kk => score Qf Kf r (kcol j kk)

/-- The values, block by block. -/
def Vrow (Vf : Mat) : ℕ → Fin 1024 → Fin 64 → ℝ := fun j kk e => Vf (ix2 (kcol j kk) e)

/-- The result at (r, e). -/
def out (Qf Kf Vf : Mat) (r : Fin 8192) (e : Fin 64) : EReal :=
  ((OnlineSoftmax.num (Srow Qf Kf r) (Vrow Vf) 8 0 e / OnlineSoftmax.den (Srow Qf Kf r) 8 0 : ℝ) : EReal)

/-- The result array. -/
def G (Qf Kf Vf : Mat) : (⟨2, ![8192, 64]⟩ : Shape).Idx → EReal :=
  fun i => out Qf Kf Vf ⟨(i 0).val, (i 0).isLt⟩ ⟨(i 1).val, (i 1).isLt⟩

theorem G_ix2 (Qf Kf Vf : Mat) (r : Fin 8192) (e : Fin 64) : G Qf Kf Vf (ix2 r e) = out Qf Kf Vf r e := rfl

/-- The f32 word of 0.125 denotes 1/8. -/
theorem ofBits_eighth : Ideal.ofBits .f32 0x3E000000#32 = ((1 / 8 : ℝ) : EReal) := by
  simp [Ideal.ofBits, Ideal.ieee, -EReal.coe_mul]; norm_num

/-- The f32 word of 64.0 denotes 64, whose square root is 8. -/
theorem ofBits_64 : Ideal.ofBits .f32 0x42800000#32 = ((64 : ℝ) : EReal) := by
  simp [Ideal.ofBits, Ideal.ieee, -EReal.coe_mul]; norm_num

theorem sqrt_64 : Ideal.sqrt ((64 : ℝ) : EReal) = ((8 : ℝ) : EReal) := by
  rw [Ideal.sqrt_coe, if_neg (by norm_num)]
  congr 1
  rw [show (64 : ℝ) = 8 * 8 by norm_num]
  exact Real.sqrt_mul_self (by norm_num)

/-- A row of products of coerced reals with the 1/8 scale folded into the left factor, summed: the coerced score. -/
theorem kernel_score (Qf Kf : Mat) (r c : Fin 8192) (x y : Fin 64 → EReal)
    (hx : ∀ d, x d = (Qf (ix2 r d) : EReal)) (hy : ∀ d, y d = (Kf (ix2 c d) : EReal)) :
    ∑ d, (x d * Ideal.ofBits .f32 0x3E000000#32) * y d = ((score Qf Kf r c : ℝ) : EReal) := by
  unfold score
  rw [Attn.coe_sum]
  refine Finset.sum_congr rfl fun d _ => ?_
  rw [hx d, hy d, ofBits_eighth, ← EReal.coe_mul, ← EReal.coe_mul]

/-- The same row of products summed first and divided by sqrt 64 afterwards: the same coerced score. -/
theorem host_score (Qf Kf : Mat) (r c : Fin 8192) (x y : Fin 64 → EReal)
    (hx : ∀ d, x d = (Qf (ix2 r d) : EReal)) (hy : ∀ d, y d = (Kf (ix2 c d) : EReal)) :
    Ideal.div (∑ d, x d * y d) (Ideal.sqrt (Ideal.ofBits .f32 0x42800000#32)) = ((score Qf Kf r c : ℝ) : EReal) := by
  have hsum : ∑ d, x d * y d = ((∑ d, Qf (ix2 r d) * Kf (ix2 c d) : ℝ) : EReal) := by
    rw [Attn.coe_sum]
    exact Finset.sum_congr rfl fun d _ => by rw [hx d, hy d, ← EReal.coe_mul]
  rw [hsum, ofBits_64, sqrt_64, Ideal.div_coe (by norm_num : (8 : ℝ) ≠ 0), ← EReal.coe_mul]
  congr 1
  unfold score
  rw [Finset.sum_mul]
  exact Finset.sum_congr rfl fun d _ => by ring

end AttnSpec

end
-- ==== Proof.AttnInduct.lean ====
/-
  The kernel's run, read: its result array is the specification.

  Point t = 8 * i + j of the grid handles query tile i and key/value tile j. By induction on the point, after point t
  the three carried buffers hold, for each query row p of tile i, the running maximum, weight sum and weighted sums of
  the row's scores against the first j + 1 key/value tiles — in the sense of the block-by-block accumulation law: for
  some real shift. At j = 7 the body also stores the quotient, which is the specification's value whatever the shift;
  these are the only points written back, and their blocks cover the result array.
-/
import proofs.«111689_j4733053960504_2_alg».proof.Proof.Gen.KernelIdeal.Value
import proofs.«111689_j4733053960504_2_alg».proof.Proof.AttnPieces
import proofs.«111689_j4733053960504_2_alg».proof.Proof.AttnBlocks
import proofs.«111689_j4733053960504_2_alg».proof.Proof.AttnSpec

noncomputable section

open Idealize.ShloMosaic Idealize.ShloMosaic.TcCoe Idealize.SL.Sem Idealize.ShloMosaic.ValueIdx
open Idealize.ShloMosaic.Pipeline (Dat)

namespace Cert.KernelIdeal.Attn

open Cert.KernelIdeal Cert.KernelIdeal.Gen Cert.KernelIdeal.Tile Cert.KernelIdeal.Blocks Cert.KernelIdeal.Online AttnSpec

variable (m : (ℓ : Loc nD τ sig) → Buf (Elt Ideal) ℓ) (c : Dev nD)

/-- The query, key and extended value tiles of point t. -/
abbrev qt (t : Fin cfg0.N) : FVec Ideal S1024x64 .f32 := iblk m c 0 t
abbrev kt (t : Fin cfg0.N) : FVec Ideal S1024x64 .f32 := iblk m c 1 t
abbrev vt (t : Fin cfg0.N) : FVec Ideal S1024x65 .f32 := iblk m c 2 t

/-- What the three carried buffers held before point t. -/
abbrev pm (t : Fin cfg0.N) : FVec Ideal S1024x1 .f32 := (outsAt0 m c (t.val - 1) (Nat.lt_of_le_of_lt (Nat.sub_le _ _) t.isLt)).2.1
abbrev pl (t : Fin cfg0.N) : FVec Ideal S1024x1 .f32 := (outsAt0 m c (t.val - 1) (Nat.lt_of_le_of_lt (Nat.sub_le _ _) t.isLt)).2.2.1
abbrev pa (t : Fin cfg0.N) : FVec Ideal S1024x64 .f32 := (outsAt0 m c (t.val - 1) (Nat.lt_of_le_of_lt (Nat.sub_le _ _) t.isLt)).2.2.2

/-! ## What each case leaves, as the body's payloads -/

theorem outs_A (t : Fin cfg0.N) (h0 : t.val % 8 = 0) (h1 : ¬t.val % 8 = 7) :
    (outsAt0 m c t.val t.isLt).2.1 = k0_pay2 (F := Ideal) (k0_pay8 (qt m c t) (kt m c t) (k0_pay4 (F := Ideal)))
    ∧ (outsAt0 m c t.val t.isLt).2.2.1 = k0_pay11 (F := Ideal) (qt m c t) (kt m c t) (k0_pay4 (F := Ideal)) (vt m c t) (k0_pay5 (F := Ideal))
    ∧ (outsAt0 m c t.val t.isLt).2.2.2 = k0_pay1 (F := Ideal) (k0_pay12 (qt m c t) (kt m c t) (k0_pay4 (F := Ideal)) (vt m c t) (k0_pay6 (F := Ideal))) := by
  rw [outsAt0_A m c t h0 h1]
  dsimp only
  exact ⟨scratch_A_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t),
    scratch_A_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t),
    scratch_A_2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t)⟩

theorem outs_B (t : Fin cfg0.N) (h0 : ¬t.val % 8 = 0) (h1 : ¬t.val % 8 = 7) :
    (outsAt0 m c t.val t.isLt).2.1 = k0_pay2 (F := Ideal) (k0_pay8 (qt m c t) (kt m c t) (pm m c t))
    ∧ (outsAt0 m c t.val t.isLt).2.2.1 = k0_pay11 (F := Ideal) (qt m c t) (kt m c t) (pm m c t) (vt m c t) (pl m c t)
    ∧ (outsAt0 m c t.val t.isLt).2.2.2 = k0_pay1 (F := Ideal) (k0_pay12 (qt m c t) (kt m c t) (pm m c t) (vt m c t) (pa m c t)) := by
  rw [outsAt0_B m c t h0 h1]
  dsimp only
  exact ⟨scratch_B_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    scratch_B_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    scratch_B_2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2⟩

theorem outs_C (t : Fin cfg0.N) (h0 : ¬t.val % 8 = 0) (h1 : t.val % 8 = 7) :
    (outsAt0 m c t.val t.isLt).2.1 = k0_pay2 (F := Ideal) (k0_pay8 (qt m c t) (kt m c t) (pm m c t))
    ∧ (outsAt0 m c t.val t.isLt).2.2.1 = k0_pay11 (F := Ideal) (qt m c t) (kt m c t) (pm m c t) (vt m c t) (pl m c t)
    ∧ (outsAt0 m c t.val t.isLt).2.2.2 = k0_pay1 (F := Ideal) (k0_pay12 (qt m c t) (kt m c t) (pm m c t) (vt m c t) (pa m c t))
    ∧ (outsAt0 m c t.val t.isLt).1 = k0_pay3 (F := Ideal) (k0_pay1 (F := Ideal) (k0_pay12 (qt m c t) (kt m c t) (pm m c t) (vt m c t) (pa m c t)))
        (k0_pay11 (F := Ideal) (qt m c t) (kt m c t) (pm m c t) (vt m c t) (pl m c t)) := by
  rw [outsAt0_C m c t h0 h1]
  dsimp only
  exact ⟨scratch_C_0 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    scratch_C_1 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    scratch_C_2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    out_C (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2⟩

/-! ## The tiles of point t as real data -/

variable (Qf Kf Vf : Mat)
variable (hq : ∀ i, m ((c : Thread nD τ).loc main_arg0) i = (Qf i : EReal))
variable (hk : ∀ i, m ((c : Thread nD τ).loc main_arg1) i = (Kf i : EReal))
variable (hv : ∀ i, m ((c : Thread nD τ).loc main_arg2) i = (Vf i : EReal))

/-- Key row kk of the tile of point t is key row kk of block t % 8. -/
theorem kcol_eq (t : Fin cfg0.N) (kk : Fin 1024) : kcol (t.val % 8) kk = krow t kk :=
  Fin.ext (by show (t.val % 8 * 1024 + kk.val) % 8192 = 1024 * (t.val % 8) + kk.val; have := kk.isLt; omega)

include hq hk in
/-- The tile's scores of row p are the row's real scores against key block t % 8. -/
theorem tile_scores (t : Fin cfg0.N) (p kk : Fin 1024) :
    k0_pay7 (F := Ideal) (qt m c t) (kt m c t) (ix2 p kk) = ((Srow Qf Kf (qrow t p) (t.val % 8) kk : ℝ) : EReal) := by
  refine (score_apply (qt m c t) (kt m c t) p kk).trans ?_
  unfold Srow
  rw [kcol_eq]
  exact kernel_score Qf Kf (qrow t p) (krow t kk) (fun d => qt m c t (ix2 p d)) (fun d => kt m c t (ix2 kk d))
    (fun d => ((iblk_q m c t p d).trans (congrFun (V_main_arg0 m c) _)).trans (hq _))
    (fun d => ((iblk_k m c t kk d).trans (congrFun (V_main_arg1 m c) _)).trans (hk _))

/-- The extended value tile's last column is the ones. -/
theorem tile_ones (t : Fin cfg0.N) (kk : Fin 1024) : vt m c t (ix2 kk col1) = 1 :=
  (iblk_v m c t kk col1).trans (vext_one m c (krow t kk))

include hv in
/-- Its other columns are the real values of key block t % 8. -/
theorem tile_values (t : Fin cfg0.N) (kk : Fin 1024) (e : Fin 64) :
    vt m c t (ix2 kk (colv e)) = ((Vrow Vf (t.val % 8) kk e : ℝ) : EReal) := by
  refine (iblk_v m c t kk (colv e)).trans ((vext_val m c (krow t kk) e).trans ?_)
  unfold Vrow
  rw [kcol_eq]
  exact hv _

/-! ## The carried state after every point -/

include hq hk hv in
/-- After point n the carried buffers hold, row by row, the accumulation over the first n % 8 + 1 key/value blocks. -/
theorem carried : ∀ (n : ℕ) (hn : n < cfg0.N) (p : Fin 1024),
    OnlineSoftmax.Inv (Srow Qf Kf (qrow ⟨n, hn⟩ p)) (Vrow Vf) (n % 8 + 1)
      ((outsAt0 m c n hn).2.1 (ix2 p (0 : Fin 1))) ((outsAt0 m c n hn).2.2.1 (ix2 p (0 : Fin 1)))
      (fun e => (outsAt0 m c n hn).2.2.2 (ix2 p e)) := by
  intro n
  induction n with
  | zero =>
    intro hn p
    obtain ⟨e1, e2, e3⟩ := outs_A m c ⟨0, hn⟩ rfl (by show ¬(0 : ℕ) % 8 = 7; decide)
    rw [e1, e2, e3]
    exact first_row (Srow Qf Kf (qrow ⟨0, hn⟩ p)) (Vrow Vf) (qt m c ⟨0, hn⟩) (kt m c ⟨0, hn⟩) (vt m c ⟨0, hn⟩) p
      (fun kk => tile_scores m c Qf Kf hq hk ⟨0, hn⟩ p kk) (fun kk => tile_ones m c ⟨0, hn⟩ kk)
      (fun kk e => tile_values m c Vf hv ⟨0, hn⟩ kk e)
  | succ n ih =>
    intro hn p
    have hN : n + 1 < 64 := lt_of_lt_of_eq hn (show cfg0.N = 64 from N_0)
    by_cases h0 : (n + 1) % 8 = 0
    · have h1 : ¬(n + 1) % 8 = 7 := by omega
      obtain ⟨e1, e2, e3⟩ := outs_A m c ⟨n + 1, hn⟩ h0 h1
      rw [e1, e2, e3, h0]
      have hs := fun kk => tile_scores m c Qf Kf hq hk ⟨n + 1, hn⟩ p kk
      have hw := fun kk e => tile_values m c Vf hv ⟨n + 1, hn⟩ kk e
      simp only [h0] at hs hw
      exact first_row (Srow Qf Kf (qrow ⟨n + 1, hn⟩ p)) (Vrow Vf) (qt m c ⟨n + 1, hn⟩) (kt m c ⟨n + 1, hn⟩)
        (vt m c ⟨n + 1, hn⟩) p hs (fun kk => tile_ones m c ⟨n + 1, hn⟩ kk) hw
    · have hmod : (n + 1) % 8 = n % 8 + 1 := by omega
      have hrow : qrow ⟨n, Nat.lt_of_succ_lt hn⟩ p = qrow ⟨n + 1, hn⟩ p :=
        Fin.ext (by show 1024 * (n / 8) + p.val = 1024 * ((n + 1) / 8) + p.val; omega)
      have hprev := ih (Nat.lt_of_succ_lt hn) p
      rw [hrow, ← hmod] at hprev
      have hstep := step_row (Srow Qf Kf (qrow ⟨n + 1, hn⟩ p)) (Vrow Vf) ((n + 1) % 8) (qt m c ⟨n + 1, hn⟩)
        (kt m c ⟨n + 1, hn⟩) (vt m c ⟨n + 1, hn⟩) (pm m c ⟨n + 1, hn⟩) (pl m c ⟨n + 1, hn⟩) (pa m c ⟨n + 1, hn⟩) p
        (fun kk => tile_scores m c Qf Kf hq hk ⟨n + 1, hn⟩ p kk) (fun kk => tile_ones m c ⟨n + 1, hn⟩ kk)
        (fun kk e => tile_values m c Vf hv ⟨n + 1, hn⟩ kk e) hprev
      by_cases h1 : (n + 1) % 8 = 7
      · obtain ⟨e1, e2, e3, -⟩ := outs_C m c ⟨n + 1, hn⟩ h0 h1
        rw [e1, e2, e3]
        exact hstep
      · obtain ⟨e1, e2, e3⟩ := outs_B m c ⟨n + 1, hn⟩ h0 h1
        rw [e1, e2, e3]
        exact hstep

include hq hk hv in
/-- At the last key/value block the output block holds the specification's values. -/
theorem out_block (t : Fin cfg0.N) (h1 : t.val % 8 = 7) (p : Fin 1024) (e : Fin 64) :
    (outsAt0 m c t.val t.isLt).1 (ix2 p e) = out Qf Kf Vf (qrow t p) e := by
  have h0 : ¬t.val % 8 = 0 := by omega
  have hinv := carried m c Qf Kf Vf hq hk hv t.val t.isLt p
  obtain ⟨-, e2, e3, e4⟩ := outs_C m c t h0 h1
  rw [e4, ← e3, ← e2]
  refine (out_apply _ _ p e).trans ?_
  rw [h1] at hinv
  exact OnlineSoftmax.quotient (Srow Qf Kf (qrow t p)) (Vrow Vf) (by decide) 8 (by decide) _ _ _ hinv 0 e

end Cert.KernelIdeal.Attn

end
-- ==== Proof.AttnArray.lean ====
/-
  From the written-back blocks to the result array, and the run.

  Only the points of the last key/value block (t % 8 = 7) write their output block back; block t / 8 of the result
  array is rows 1024 * (t / 8) .. + 1023, and these eight blocks cover the array. Each written block holds the
  specification's values, so the array after the run is the specification.
-/
import proofs.«111689_j4733053960504_2_alg».proof.Proof.AttnInduct

noncomputable section

open Idealize.ShloMosaic Idealize.ShloMosaic.TcCoe Idealize.SL.Sem Idealize.ShloMosaic.ValueIdx
open Idealize.ShloMosaic.Pipeline (Dat)

namespace Cert.KernelIdeal.Attn

open Cert.KernelIdeal Cert.KernelIdeal.Gen Cert.KernelIdeal.Tile Cert.KernelIdeal.Blocks AttnSpec

variable (m : (ℓ : Loc nD τ sig) → Buf (Elt Ideal) ℓ) (c : Dev nD) (Qf Kf Vf : Mat)
variable (hq : ∀ i, m ((c : Thread nD τ).loc main_arg0) i = (Qf i : EReal))
variable (hk : ∀ i, m ((c : Thread nD τ).loc main_arg1) i = (Kf i : EReal))
variable (hv : ∀ i, m ((c : Thread nD τ).loc main_arg2) i = (Vf i : EReal))

include hq hk hv in
/-- What a written-back point writes is its block of the specification. -/
theorem flushed_eq (t : Fin cfg0.N) (hf : (cfg0.win 3).flush t = true) :
    (dats m 0 c).flushed 3 t = ((cfg0.win 3).blk t).view.read (Elt Ideal) (G Qf Kf Vf) := by
  have h1 : t.val % 8 = 7 := (flush0_3 t).mp hf
  rw [Value.flushed3]
  funext j
  obtain ⟨p, e, rfl⟩ : ∃ (p : Fin 1024) (e : Fin 64), j = ix2 p e := ⟨j 0, j 1, eq_ix2 j⟩
  show (outsAt0 m c t.val t.isLt).1 (ix2 p e) = G Qf Kf Vf (((cfg0.win 3).blk t).view.emb (ix2 p e))
  have hemb : ((cfg0.win 3).blk t).view.emb (ix2 p e) = ix2 (qrow t p) e := by
    obtain ⟨-, -, -, -, -, -, e0, e1⟩ := idx_facts t
    funext a
    apply Fin.ext
    match a with
    | ⟨0, _⟩ => show win0_3.index t (0 : Fin 2) * 1024 + 1 * p.val = 1024 * (t.val / 8) + p.val; rw [e0]; omega
    | ⟨1, _⟩ => show win0_3.index t (1 : Fin 2) * 64 + 1 * e.val = e.val; rw [e1]; omega
  rw [hemb, G_ix2]
  exact out_block m c Qf Kf Vf hq hk hv t h1 p e

/-- An index is in point t's output block iff each coordinate is in the block's range. -/
theorem mem_blk (t : Fin cfg0.N) (i : S8192x64.Idx) :
    i ∈ ((cfg0.win 3).blk t).view.set ↔ ∀ a : Fin 2, win0_3.index t a * S1024x64.size a ≤ (i a).val
      ∧ (i a).val < win0_3.index t a * S1024x64.size a + S1024x64.size a := by
  show i ∈ ((View.whole main_v2).slice (win0_3.rect t)).set ↔ _
  rw [View.set_slice_whole, Rect.mem_set_unit]
  exact Iff.rfl

include hq hk hv in
/-- The result array after the run is the specification. -/
theorem final : (dats m 0 c).arrAt 3 cfg0.N = G Qf Kf Vf :=
  (dats m 0 c).arrAt_eq_of_cover 3 (G Qf Kf Vf) (fun t hf => flushed_eq m c Qf Kf Vf hq hk hv t hf) fun i => by
    have hi0 : (i 0).val < 8192 := (i 0).isLt
    have hi1 : (i 1).val < 64 := (i 1).isLt
    have hlt : 8 * ((i 0).val / 1024) + 7 < cfg0.N := by rw [show cfg0.N = 64 from N_0]; omega
    refine ⟨⟨8 * ((i 0).val / 1024) + 7, hlt⟩, (flush0_3 _).mpr (by show (8 * ((i 0).val / 1024) + 7) % 8 = 7; omega), ?_⟩
    rw [mem_blk]
    obtain ⟨-, -, -, -, -, -, e0, e1⟩ := idx_facts ⟨8 * ((i 0).val / 1024) + 7, hlt⟩
    intro a
    match a with
    | ⟨0, _⟩ =>
      show win0_3.index ⟨8 * ((i 0).val / 1024) + 7, hlt⟩ (0 : Fin 2) * 1024 ≤ (i 0).val
        ∧ (i 0).val < win0_3.index ⟨8 * ((i 0).val / 1024) + 7, hlt⟩ (0 : Fin 2) * 1024 + 1024
      rw [e0]; dsimp only; omega
    | ⟨1, _⟩ =>
      show win0_3.index ⟨8 * ((i 0).val / 1024) + 7, hlt⟩ (1 : Fin 2) * 64 ≤ (i 1).val
        ∧ (i 1).val < win0_3.index ⟨8 * ((i 0).val / 1024) + 7, hlt⟩ (1 : Fin 2) * 64 + 64
      rw [e1]; omega

end Cert.KernelIdeal.Attn

end
-- ==== Proof.AttnRef.lean ====
/-
  The reference computes the specification.

  Stage by stage at an entry, for arguments that are coercions of real arrays: the scores are the real scores
  (the contraction divided by sqrt 64 = 8), the row maximum is max ⊥ (the fold of max from ⊥ over the row), the weights
  are exp (score - maximum), the normaliser is 0 + the row's weight sum, and the result is the sum over all 8192 key rows
  of (weight / normaliser) * value: the divide-early softmax-weighted mean, which is the blocked quotient.
-/
import proofs.«111689_j4733053960504_2_alg».proof.Proof.Gen.ReferenceIdeal.Read
import proofs.«111689_j4733053960504_2_alg».proof.Proof.AttnSpec
import proofs.«111689_j4733053960504_2_alg».proof.Proof.LibRowOps

noncomputable section

open Idealize.ShloMosaic Idealize.ShloMosaic.ValueIdx

namespace Cert.ReferenceIdeal.Softmax

open Cert.ReferenceIdeal Cert.ReferenceIdeal.Gen Cert.ReferenceIdeal.Read AttnSpec

variable (q k v : FVec Ideal S8192x64 .f32) (Qf Kf Vf : Mat)
variable (hq : ∀ i, q i = (Qf i : EReal)) (hk : ∀ i, k i = (Kf i : EReal)) (hv : ∀ i, v i = (Vf i : EReal))

include hq hk in
/-- The scaled scores. -/
theorem scores_apply (r c : Fin 8192) :
    val_main_v3 (F := Ideal) q k (ix2 r c) = ((score Qf Kf r c : ℝ) : EReal) := by
  have el : ∀ d : Fin 64, lidx_main_v0 (ix2 r c) d = ix2 r d := fun d =>
    funext fun a => Fin.ext (by match a with | ⟨0, _⟩ => rfl | ⟨1, _⟩ => rfl)
  have er : ∀ d : Fin 64, ridx_main_v0 (ix2 r c) d = ix2 c d := fun d =>
    funext fun a => Fin.ext (by match a with | ⟨0, _⟩ => rfl | ⟨1, _⟩ => rfl)
  rw [val_main_v3_apply, val_main_v0_apply, val_main_v2_apply, val_main_v1_apply, val_main_cst_apply]
  simp only [el, er]
  exact host_score Qf Kf r c (fun d => q (ix2 r d)) (fun d => k (ix2 c d)) (fun d => hq _) (fun d => hk _)

include hq hk in
/-- The row maximum. -/
theorem rowmax_apply (r : Fin 8192) :
    val_main_v6 (F := Ideal) q k (ix1 r)
      = max ⊥ ((Finset.univ : Finset (Fin 8192)).fold max ⊥ (fun c => ((score Qf Kf r c : ℝ) : EReal))) := by
  rw [val_main_v6_apply, val_main_v5_apply, val_main_cst_1_apply]
  unfold val_main_v4
  rw [Gcn.Lib.hostRowMax_apply (val_main_v3 (F := Ideal) q k) (val_main_cst_0 (F := Ideal)) reducesTo_S8192x8192_S8192_d1
    (by decide) h_S_ r, val_main_cst_0_apply]
  rw [Ideal.maximumf_def, Ideal.ofBits_def, Gcn.Lib.ofBits_neg_inf_f32]
  congr 2
  exact funext fun c => scores_apply q k Qf Kf hq hk r c

include hq hk in
/-- The weights. -/
theorem weight_apply (r c : Fin 8192) :
    val_main_v10 (F := Ideal) q k (ix2 r c)
      = Ideal.exp (((score Qf Kf r c : ℝ) : EReal) - val_main_v6 (F := Ideal) q k (ix1 r)) := by
  have e8 : idx_main_v7 (idx_main_v8 (ix2 r c)) = ix1 r :=
    funext fun a => Fin.ext (by match a with | ⟨0, _⟩ => rfl)
  rw [val_main_v10_apply, val_main_v9_apply, val_main_v8_apply, val_main_v7_apply, e8,
    scores_apply q k Qf Kf hq hk r c, Ideal.hostUnary_exp_def, Ideal.subf_def]

/-- The normaliser. -/
theorem norm_apply (r c : Fin 8192) :
    val_main_v13 (F := Ideal) q k (ix2 r c)
      = Ideal.ofBits .f32 0x00000000#32 + ∑ c' : Fin 8192, val_main_v10 (F := Ideal) q k (ix2 r c') := by
  have e13 : idx_main_v12 (idx_main_v13 (ix2 r c)) = ix1 r :=
    funext fun a => Fin.ext (by match a with | ⟨0, _⟩ => rfl)
  have e11 : ∀ c' : Fin 8192, idx_main_v11 (ix1 r) c' = ix2 r c' := fun c' =>
    funext fun a => Fin.ext (by match a with | ⟨0, _⟩ => rfl | ⟨1, _⟩ => rfl)
  rw [val_main_v13_apply, val_main_v12_apply, e13, val_main_v11_apply, val_main_cst_2_apply]
  simp only [e11]
  rfl

include hq hk hv in
/-- The reference's result is the specification. -/
theorem result_apply (r : Fin 8192) (e : Fin 64) :
    val_main_v15 (F := Ideal) q k v (ix2 r e) = G Qf Kf Vf (ix2 r e) := by
  have el : ∀ c : Fin 8192, lidx_main_v15 (ix2 r e) c = ix2 r c := fun c =>
    funext fun a => Fin.ext (by match a with | ⟨0, _⟩ => rfl | ⟨1, _⟩ => rfl)
  have er : ∀ c : Fin 8192, ridx_main_v15 (ix2 r e) c = ix2 c e := fun c =>
    funext fun a => Fin.ext (by match a with | ⟨0, _⟩ => rfl | ⟨1, _⟩ => rfl)
  rw [val_main_v15_apply, G_ix2]
  simp only [el, er, val_main_v14_apply, Ideal.hostDivf_def, norm_apply q k, weight_apply q k Qf Kf hq hk]
  exact BlockedSoftmax.plain_eq_blocked (J := 8) (B := 1024) rfl (by decide) (fun c => score Qf Kf r c)
    (fun c e => Vf (ix2 c e)) e (fun c => ((score Qf Kf r c : ℝ) : EReal)) (fun _ => rfl)
    (fun c => v (ix2 c e)) (fun c => hv _) (val_main_v6 (F := Ideal) q k (ix1 r)) (rowmax_apply q k Qf Kf hq hk r)
    (Ideal.ofBits .f32 0x00000000#32) Attn.ofBits_zero

end Cert.ReferenceIdeal.Softmax

end
-- ==== Proof.AttnFinite.lean ====
/-
  From the precondition to real entries.

  The precondition says of each of the three argument arrays that every entry x has |x| < +∞, with |x| = max x (-x) on
  the extended reals. An extended real with max x (-x) < ⊤ is neither ⊤ nor ⊥ (for ⊥, -⊥ = ⊤), so it is a real number.
-/
import proofs.«111689_j4733053960504_2_alg».proof.Pre_finite_inputs
import Idealize.ShloMosaic.PureOps.Ideal
import Idealize.ShloMosaic.Lib.ReduceAll
import Idealize.ShloMosaic.Lib.Affine
import Idealize.ShloMosaic.Lib.ValueIdx
import Idealize.ShloMosaic.Lib.Pipeline.Value

noncomputable section

open Idealize.ShloMosaic

namespace Cert.Pre_finite_inputs.Finite

open Cert.Pre_finite_inputs

variable [Facts]
open Facts

instance : Subsingleton S_.Idx := ⟨fun a b => funext fun d => d.elim0⟩

/-- An extended real whose absolute value compares below the f32 word of +∞ is a real. -/
theorem real_of_abs_lt (x : EReal)
    (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  have hlt : max x (-x) < ⊤ := by
    have h' : BitVec.ofBool (decide (max x (-x) < (⊤ : EReal))) = 1#1 := h
    by_contra hcon
    rw [decide_eq_false hcon] at h'
    exact absurd h' (by decide)
  induction x using EReal.rec with
  | bot => simp at hlt
  | coe r => exact ⟨r, rfl⟩
  | top => simp at hlt

/-- One array's "all entries finite" word being 1 makes every entry a real. -/
theorem all_real (x : FVec Ideal S8192x64 .f32)
    (h : Host.reduce IntOp.andi
        (cmpf .olt (Host.absf x) (broadcastInDim S8192x64 ![] bcast_S_S8192x64 (constant (F := Ideal) S_ .f32 0x7F800000#32)))
        (constantI S_ 1 1#1) reducesTo_S8192x64_S_d0_1 h_S_ ValueIdx.ix0 = 1#1)
    (i : S8192x64.Idx) : ∃ r : ℝ, x i = r := by
  have hi := Host.reduce_andi_all _ _ reducesTo_S8192x64_S_d0_1 h_S_ ValueIdx.ix0 h i
  have hb : broadcastInDim S8192x64 ![] bcast_S_S8192x64 (constant (F := Ideal) S_ .f32 0x7F800000#32) i
      = Ideal.ofBits .f32 0x7F800000#32 :=
    broadcastInDim_apply _ bcast_S_S8192x64 _ i (fun a => a.elim0) (fun a => a.elim0)
  rw [ValueIdx.cmpf_apply, hb] at hi
  exact real_of_abs_lt (x i) hi

/-- The precondition makes every entry of the three argument arrays a real. -/
theorem of_pre (a0 a1 a2 : FVec Ideal S8192x64 .f32) (h : fn (F := Ideal) a0 a1 a2 = fun _ => 1#1) :
    (∀ i, ∃ r : ℝ, a0 i = r) ∧ (∀ i, ∃ r : ℝ, a1 i = r) ∧ (∀ i, ∃ r : ℝ, a2 i = r) := by
  have h0 := congrFun h ValueIdx.ix0
  dsimp only [fn] at h0
  obtain ⟨h01, h2⟩ := IntOp.andi_eq_one.mp h0
  obtain ⟨h0', h1⟩ := IntOp.andi_eq_one.mp h01
  exact ⟨all_real a0 h0', all_real a1 h1, all_real a2 h2⟩

end Cert.Pre_finite_inputs.Finite

end
-- ==== Proof.lean ====
/-
  Scaled dot-product attention, block by block against all at once.

  The kernel walks, for each tile of 1024 query rows, over the 8 tiles of 1024 key/value rows, carrying per query row a
  running maximum m of the scores, a running sum l of the weights exp (score - m) and running weighted sums acc of the
  values; each new tile rescales l and acc by exp (m - m') to the new maximum m' and adds the tile's weights (their sum
  taken by a column of ones appended to the values) and weighted values; after the last tile it stores acc / l. The
  reference forms all 8192 scores of a row at once, subtracts their maximum, exponentiates, divides every weight by the
  weight sum and only then takes the weighted sum of the values. The kernel scales the queries by 1/8 before the
  contraction, the reference divides the contraction by sqrt 64 = 8.

  On the extended reals the two agree when every input is a real number (the precondition): then every score is a real,
  the running maximum after the first tile is a real, the rescaling exp (m - m') * exp (s - m) = exp (s - m') is the real
  one (on the first tile the factor is exp ⊥ = 0 against zero sums), so after the last tile l and acc are the row's weight
  sum and weighted sums at SOME real shift; and the quotient of the two does not depend on the shift, nor on whether the
  division comes before or after the sum. The changes of float format in the kernel are the identity on the extended
  reals, and the ideal pass rewrote nothing, so that conjunct is trivial. The three frames are the generated ones (the
  reference's is its generated run with the result dropped).
-/
import proofs.«111689_j4733053960504_2_alg».proof.Defs
import proofs.«111689_j4733053960504_2_alg».proof.Proof.Gen.Kernel
import proofs.«111689_j4733053960504_2_alg».proof.Proof.Gen.Kernel.Skeleton
import proofs.«111689_j4733053960504_2_alg».proof.Proof.Gen.Kernel.Launch
import proofs.«111689_j4733053960504_2_alg».proof.Proof.Gen.Kernel.Points
import proofs.«111689_j4733053960504_2_alg».proof.Proof.Gen.Kernel.Frame
import proofs.«111689_j4733053960504_2_alg».proof.Proof.Gen.KernelIdeal
import proofs.«111689_j4733053960504_2_alg».proof.Proof.Gen.KernelIdeal.Skeleton
import proofs.«111689_j4733053960504_2_alg».proof.Proof.Gen.KernelIdeal.Launch
import proofs.«111689_j4733053960504_2_alg».proof.Proof.Gen.KernelIdeal.Points
import proofs.«111689_j4733053960504_2_alg».proof.Proof.Gen.KernelIdeal.Frame
import proofs.«111689_j4733053960504_2_alg».proof.Proof.Gen.ReferenceIdeal
import proofs.«111689_j4733053960504_2_alg».proof.Proof.Gen.Pre_finite_inputs
import proofs.«111689_j4733053960504_2_alg».proof.Proof.Gen.KernelIdeal.Value
import proofs.«111689_j4733053960504_2_alg».proof.Proof.Gen.ReferenceIdeal.Run
import proofs.«111689_j4733053960504_2_alg».proof.Proof.Gen.ReferenceIdeal.Read
import proofs.«111689_j4733053960504_2_alg».proof.Proof.AttnArray
import proofs.«111689_j4733053960504_2_alg».proof.Proof.AttnRef
import proofs.«111689_j4733053960504_2_alg».proof.Proof.AttnFinite
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at the specification of the (real) argument arrays. -/
theorem algebraic : Cert.algebraic_KernelIdeal_ReferenceIdeal := by
  intro m ρ m' ρ' hpre hagree
  have hfin := fun c => Cert.Pre_finite_inputs.Finite.of_pre _ _ _ (hpre c)
  choose Qf hQ using fun c => (hfin c).1
  choose Kf hK using fun c => (hfin c).2.1
  choose Vf hV using fun c => (hfin c).2.2
  refine ⟨fun c => AttnSpec.G (Qf c) (Kf c) (Vf c), ?_, ?_⟩
  · exact (θ_run Cert.KernelIdeal.defs _ _).mono
      (fun r h c => ⟨(h c).1.trans (Cert.KernelIdeal.Attn.final m c (Qf c) (Kf c) (Vf c) (hQ c) (hK c) (hV c)), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2]
    refine (Cert.ReferenceIdeal.Read.val_main_v15_eq _ _ _).trans ?_
    funext i
    obtain ⟨r, e, rfl⟩ : ∃ (r : Fin 8192) (e : Fin 64), i = ix2 r e := ⟨i 0, i 1, eq_ix2 i⟩
    exact Cert.ReferenceIdeal.Softmax.result_apply _ _ _ (Qf c) (Kf c) (Vf c) (hQ c) (hK c) (hV c) r e

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
